-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2000x26 : Shape := ⟨3, ![64, 2000, 26]⟩
abbrev S_ : Shape := ⟨0, ![]⟩

class Facts : Prop where
  bcast_S_S64x2000x26 : S_.BroadcastsInDim S64x2000x26 (![] : Fin 0 → Fin S64x2000x26.rank)
  reducesTo_S64x2000x26_S_d0_1_2 : S64x2000x26.ReducesTo [0, 1, 2] S_
  h_S_ : 0 < S_.numel

variable [Facts]

def fn {F : FTy → Type} [FloatOps F] (main_arg0 : FVec F S64x2000x26 .f32) : IVec S_ 1 :=
  let main_v0 : FVec F S64x2000x26 .f32 := Host.absf main_arg0
  let main_cst : FVec F S_ .f32 := constant S_ .f32 0x7F800000#32
  let main_v1 : FVec F S64x2000x26 .f32 := broadcastInDim S64x2000x26 ![] bcast_S_S64x2000x26 main_cst
  let main_v2 : IVec S64x2000x26 1 := cmpf .olt main_v0 main_v1
  let main_c : IVec S_ 1 := constantI S_ 1 1#1
  let main_v3 : IVec S_ 1 := (fun x v => Host.reduce IntOp.andi x v reducesTo_S64x2000x26_S_d0_1_2 h_S_) main_v2 main_c
  main_v3
-- ==== Kernel.lean ====
abbrev S64x2000x26 : Shape := ⟨3, ![64, 2000, 26]⟩
abbrev S64x2000x494 : Shape := ⟨3, ![64, 2000, 494]⟩
abbrev S4x2000x26 : Shape := ⟨3, ![4, 2000, 26]⟩
abbrev S4x2000x494 : Shape := ⟨3, ![4, 2000, 494]⟩
abbrev S4x191x26 : Shape := ⟨3, ![4, 191, 26]⟩
abbrev S4x9x26 : Shape := ⟨3, ![4, 9, 26]⟩
abbrev S4x200x26 : Shape := ⟨3, ![4, 200, 26]⟩
abbrev S4x192x26 : Shape := ⟨3, ![4, 192, 26]⟩
abbrev S4x8x26 : Shape := ⟨3, ![4, 8, 26]⟩
abbrev S4x193x26 : Shape := ⟨3, ![4, 193, 26]⟩
abbrev S4x7x26 : Shape := ⟨3, ![4, 7, 26]⟩
abbrev S4x194x26 : Shape := ⟨3, ![4, 194, 26]⟩
abbrev S4x6x26 : Shape := ⟨3, ![4, 6, 26]⟩
abbrev S4x195x26 : Shape := ⟨3, ![4, 195, 26]⟩
abbrev S4x5x26 : Shape := ⟨3, ![4, 5, 26]⟩
abbrev S4x196x26 : Shape := ⟨3, ![4, 196, 26]⟩
abbrev S4x4x26 : Shape := ⟨3, ![4, 4, 26]⟩
abbrev S4x197x26 : Shape := ⟨3, ![4, 197, 26]⟩
abbrev S4x3x26 : Shape := ⟨3, ![4, 3, 26]⟩
abbrev S4x198x26 : Shape := ⟨3, ![4, 198, 26]⟩
abbrev S4x2x26 : Shape := ⟨3, ![4, 2, 26]⟩
abbrev S4x199x26 : Shape := ⟨3, ![4, 199, 26]⟩
abbrev S4x1x26 : Shape := ⟨3, ![4, 1, 26]⟩
abbrev S4x200x494 : Shape := ⟨3, ![4, 200, 494]⟩

abbrev nBuf : Space → Nat
  | .hbm => 2
  | .vmem => 4
  | .smem => 0
  | _ => 0

abbrev bufTy : (tb : Table) → Fin (tcTables nBuf tb) → BufTy
  | .hbm, ⟨0, _⟩ => ⟨S64x2000x26, .f32⟩
  | .hbm, ⟨1, _⟩ => ⟨S64x2000x494, .f32⟩
  | .local _ .vmem, ⟨0, _⟩ => ⟨S4x2000x26, .f32⟩
  | .local _ .vmem, ⟨1, _⟩ => ⟨S4x2000x26, .f32⟩
  | .local _ .vmem, ⟨2, _⟩ => ⟨S4x2000x494, .f32⟩
  | .local _ .vmem, ⟨3, _⟩ => ⟨S4x2000x494, .f32⟩
  | _, _ => ⟨S64x2000x26, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x2000x26 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2000x494 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4x2000x26_S4x191x26_0_0_0 : ∀ a, (![0, 0, 0] : Fin 3 → Nat) a + S4x191x26.size a ≤ S4x2000x26.size a
  h_S4x191x26 : 0 < S4x191x26.numel
  concatenates_S4x9x26_S4x191x26_S4x200x26_d1 : Shape.Concatenates [S4x9x26, S4x191x26] S4x200x26 1
  inb_S4x2000x26_S4x192x26_0_0_0 : ∀ a, (![0, 0, 0] : Fin 3 → Nat) a + S4x192x26.size a ≤ S4x2000x26.size a
  h_S4x192x26 : 0 < S4x192x26.numel
  concatenates_S4x8x26_S4x192x26_S4x200x26_d1 : Shape.Concatenates [S4x8x26, S4x192x26] S4x200x26 1
  inb_S4x2000x26_S4x193x26_0_0_0 : ∀ a, (![0, 0, 0] : Fin 3 → Nat) a + S4x193x26.size a ≤ S4x2000x26.size a
  h_S4x193x26 : 0 < S4x193x26.numel
  concatenates_S4x7x26_S4x193x26_S4x200x26_d1 : Shape.Concatenates [S4x7x26, S4x193x26] S4x200x26 1
  inb_S4x2000x26_S4x194x26_0_0_0 : ∀ a, (![0, 0, 0] : Fin 3 → Nat) a + S4x194x26.size a ≤ S4x2000x26.size a
  h_S4x194x26 : 0 < S4x194x26.numel
  concatenates_S4x6x26_S4x194x26_S4x200x26_d1 : Shape.Concatenates [S4x6x26, S4x194x26] S4x200x26 1
  inb_S4x2000x26_S4x195x26_0_0_0 : ∀ a, (![0, 0, 0] : Fin 3 → Nat) a + S4x195x26.size a ≤ S4x2000x26.size a
  h_S4x195x26 : 0 < S4x195x26.numel
  concatenates_S4x5x26_S4x195x26_S4x200x26_d1 : Shape.Concatenates [S4x5x26, S4x195x26] S4x200x26 1
  inb_S4x2000x26_S4x196x26_0_0_0 : ∀ a, (![0, 0, 0] : Fin 3 → Nat) a + S4x196x26.size a ≤ S4x2000x26.size a
  h_S4x196x26 : 0 < S4x196x26.numel
  concatenates_S4x4x26_S4x196x26_S4x200x26_d1 : Shape.Concatenates [S4x4x26, S4x196x26] S4x200x26 1
  inb_S4x2000x26_S4x197x26_0_0_0 : ∀ a, (![0, 0, 0] : Fin 3 → Nat) a + S4x197x26.size a ≤ S4x2000x26.size a
  h_S4x197x26 : 0 < S4x197x26.numel
  concatenates_S4x3x26_S4x197x26_S4x200x26_d1 : Shape.Concatenates [S4x3x26, S4x197x26] S4x200x26 1
  inb_S4x2000x26_S4x198x26_0_0_0 : ∀ a, (![0, 0, 0] : Fin 3 → Nat) a + S4x198x26.size a ≤ S4x2000x26.size a
  h_S4x198x26 : 0 < S4x198x26.numel
  concatenates_S4x2x26_S4x198x26_S4x200x26_d1 : Shape.Concatenates [S4x2x26, S4x198x26] S4x200x26 1
  inb_S4x2000x26_S4x199x26_0_0_0 : ∀ a, (![0, 0, 0] : Fin 3 → Nat) a + S4x199x26.size a ≤ S4x2000x26.size a
  h_S4x199x26 : 0 < S4x199x26.numel
  concatenates_S4x1x26_S4x199x26_S4x200x26_d1 : Shape.Concatenates [S4x1x26, S4x199x26] S4x200x26 1
  inb_S4x2000x26_S4x200x26_0_0_0 : ∀ a, (![0, 0, 0] : Fin 3 → Nat) a + S4x200x26.size a ≤ S4x2000x26.size a
  h_S4x200x26 : 0 < S4x200x26.numel
  inb_S4x2000x26_S4x200x26_0_1_0 : ∀ a, (![0, 1, 0] : Fin 3 → Nat) a + S4x200x26.size a ≤ S4x2000x26.size a
  inb_S4x2000x26_S4x200x26_0_2_0 : ∀ a, (![0, 2, 0] : Fin 3 → Nat) a + S4x200x26.size a ≤ S4x2000x26.size a
  inb_S4x2000x26_S4x200x26_0_3_0 : ∀ a, (![0, 3, 0] : Fin 3 → Nat) a + S4x200x26.size a ≤ S4x2000x26.size a
  inb_S4x2000x26_S4x200x26_0_4_0 : ∀ a, (![0, 4, 0] : Fin 3 → Nat) a + S4x200x26.size a ≤ S4x2000x26.size a
  inb_S4x2000x26_S4x200x26_0_5_0 : ∀ a, (![0, 5, 0] : Fin 3 → Nat) a + S4x200x26.size a ≤ S4x2000x26.size a
  inb_S4x2000x26_S4x200x26_0_6_0 : ∀ a, (![0, 6, 0] : Fin 3 → Nat) a + S4x200x26.size a ≤ S4x2000x26.size a
  inb_S4x2000x26_S4x200x26_0_7_0 : ∀ a, (![0, 7, 0] : Fin 3 → Nat) a + S4x200x26.size a ≤ S4x2000x26.size a
  inb_S4x2000x26_S4x200x26_0_8_0 : ∀ a, (![0, 8, 0] : Fin 3 → Nat) a + S4x200x26.size a ≤ S4x2000x26.size a
  inb_S4x2000x26_S4x200x26_0_9_0 : ∀ a, (![0, 9, 0] : Fin 3 → Nat) a + S4x200x26.size a ≤ S4x2000x26.size a
  concatenates_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x494_d2 : Shape.Concatenates [S4x200x26, S4x200x26, S4x200x26, S4x200x26, S4x200x26, S4x200x26, S4x200x26, S4x200x26, S4x200x26, S4x200x26, S4x200x26, S4x200x26, S4x200x26, S4x200x26, S4x200x26, S4x200x26, S4x200x26, S4x200x26, S4x200x26] S4x200x494 2
  inb_S4x2000x494_S4x200x494_0_0_0 : ∀ a, (![0, 0, 0] : Fin 3 → Nat) a + S4x200x494.size a ≤ S4x2000x494.size a
  h_S4x200x494 : 0 < S4x200x494.numel
  inb_S4x2000x26_S4x200x26_0_191_0 : ∀ a, (![0, 191, 0] : Fin 3 → Nat) a + S4x200x26.size a ≤ S4x2000x26.size a
  inb_S4x2000x26_S4x200x26_0_192_0 : ∀ a, (![0, 192, 0] : Fin 3 → Nat) a + S4x200x26.size a ≤ S4x2000x26.size a
  inb_S4x2000x26_S4x200x26_0_193_0 : ∀ a, (![0, 193, 0] : Fin 3 → Nat) a + S4x200x26.size a ≤ S4x2000x26.size a
  inb_S4x2000x26_S4x200x26_0_194_0 : ∀ a, (![0, 194, 0] : Fin 3 → Nat) a + S4x200x26.size a ≤ S4x2000x26.size a
  inb_S4x2000x26_S4x200x26_0_195_0 : ∀ a, (![0, 195, 0] : Fin 3 → Nat) a + S4x200x26.size a ≤ S4x2000x26.size a
  inb_S4x2000x26_S4x200x26_0_196_0 : ∀ a, (![0, 196, 0] : Fin 3 → Nat) a + S4x200x26.size a ≤ S4x2000x26.size a
  inb_S4x2000x26_S4x200x26_0_197_0 : ∀ a, (![0, 197, 0] : Fin 3 → Nat) a + S4x200x26.size a ≤ S4x2000x26.size a
  inb_S4x2000x26_S4x200x26_0_198_0 : ∀ a, (![0, 198, 0] : Fin 3 → Nat) a + S4x200x26.size a ≤ S4x2000x26.size a
  inb_S4x2000x26_S4x200x26_0_199_0 : ∀ a, (![0, 199, 0] : Fin 3 → Nat) a + S4x200x26.size a ≤ S4x2000x26.size a
  inb_S4x2000x26_S4x200x26_0_200_0 : ∀ a, (![0, 200, 0] : Fin 3 → Nat) a + S4x200x26.size a ≤ S4x2000x26.size a
  inb_S4x2000x26_S4x200x26_0_201_0 : ∀ a, (![0, 201, 0] : Fin 3 → Nat) a + S4x200x26.size a ≤ S4x2000x26.size a
  inb_S4x2000x26_S4x200x26_0_202_0 : ∀ a, (![0, 202, 0] : Fin 3 → Nat) a + S4x200x26.size a ≤ S4x2000x26.size a
  inb_S4x2000x26_S4x200x26_0_203_0 : ∀ a, (![0, 203, 0] : Fin 3 → Nat) a + S4x200x26.size a ≤ S4x2000x26.size a
  inb_S4x2000x26_S4x200x26_0_204_0 : ∀ a, (![0, 204, 0] : Fin 3 → Nat) a + S4x200x26.size a ≤ S4x2000x26.size a
  inb_S4x2000x26_S4x200x26_0_205_0 : ∀ a, (![0, 205, 0] : Fin 3 → Nat) a + S4x200x26.size a ≤ S4x2000x26.size a
  inb_S4x2000x26_S4x200x26_0_206_0 : ∀ a, (![0, 206, 0] : Fin 3 → Nat) a + S4x200x26.size a ≤ S4x2000x26.size a
  inb_S4x2000x26_S4x200x26_0_207_0 : ∀ a, (![0, 207, 0] : Fin 3 → Nat) a + S4x200x26.size a ≤ S4x2000x26.size a
  inb_S4x2000x26_S4x200x26_0_208_0 : ∀ a, (![0, 208, 0] : Fin 3 → Nat) a + S4x200x26.size a ≤ S4x2000x26.size a
  inb_S4x2000x26_S4x200x26_0_209_0 : ∀ a, (![0, 209, 0] : Fin 3 → Nat) a + S4x200x26.size a ≤ S4x2000x26.size a
  inb_S4x2000x494_S4x200x494_0_200_0 : ∀ a, (![0, 200, 0] : Fin 3 → Nat) a + S4x200x494.size a ≤ S4x2000x494.size a
  inb_S4x2000x26_S4x200x26_0_391_0 : ∀ a, (![0, 391, 0] : Fin 3 → Nat) a + S4x200x26.size a ≤ S4x2000x26.size a
  inb_S4x2000x26_S4x200x26_0_392_0 : ∀ a, (![0, 392, 0] : Fin 3 → Nat) a + S4x200x26.size a ≤ S4x2000x26.size a
  inb_S4x2000x26_S4x200x26_0_393_0 : ∀ a, (![0, 393, 0] : Fin 3 → Nat) a + S4x200x26.size a ≤ S4x2000x26.size a
  inb_S4x2000x26_S4x200x26_0_394_0 : ∀ a, (![0, 394, 0] : Fin 3 → Nat) a + S4x200x26.size a ≤ S4x2000x26.size a
  inb_S4x2000x26_S4x200x26_0_395_0 : ∀ a, (![0, 395, 0] : Fin 3 → Nat) a + S4x200x26.size a ≤ S4x2000x26.size a
  inb_S4x2000x26_S4x200x26_0_396_0 : ∀ a, (![0, 396, 0] : Fin 3 → Nat) a + S4x200x26.size a ≤ S4x2000x26.size a
  inb_S4x2000x26_S4x200x26_0_397_0 : ∀ a, (![0, 397, 0] : Fin 3 → Nat) a + S4x200x26.size a ≤ S4x2000x26.size a
  inb_S4x2000x26_S4x200x26_0_398_0 : ∀ a, (![0, 398, 0] : Fin 3 → Nat) a + S4x200x26.size a ≤ S4x2000x26.size a
  inb_S4x2000x26_S4x200x26_0_399_0 : ∀ a, (![0, 399, 0] : Fin 3 → Nat) a + S4x200x26.size a ≤ S4x2000x26.size a
  inb_S4x2000x26_S4x200x26_0_400_0 : ∀ a, (![0, 400, 0] : Fin 3 → Nat) a + S4x200x26.size a ≤ S4x2000x26.size a
  inb_S4x2000x26_S4x200x26_0_401_0 : ∀ a, (![0, 401, 0] : Fin 3 → Nat) a + S4x200x26.size a ≤ S4x2000x26.size a
  inb_S4x2000x26_S4x200x26_0_402_0 : ∀ a, (![0, 402, 0] : Fin 3 → Nat) a + S4x200x26.size a ≤ S4x2000x26.size a
  inb_S4x2000x26_S4x200x26_0_403_0 : ∀ a, (![0, 403, 0] : Fin 3 → Nat) a + S4x200x26.size a ≤ S4x2000x26.size a
  inb_S4x2000x26_S4x200x26_0_404_0 : ∀ a, (![0, 404, 0] : Fin 3 → Nat) a + S4x200x26.size a ≤ S4x2000x26.size a
  inb_S4x2000x26_S4x200x26_0_405_0 : ∀ a, (![0, 405, 0] : Fin 3 → Nat) a + S4x200x26.size a ≤ S4x2000x26.size a
  inb_S4x2000x26_S4x200x26_0_406_0 : ∀ a, (![0, 406, 0] : Fin 3 → Nat) a + S4x200x26.size a ≤ S4x2000x26.size a
  inb_S4x2000x26_S4x200x26_0_407_0 : ∀ a, (![0, 407, 0] : Fin 3 → Nat) a + S4x200x26.size a ≤ S4x2000x26.size a
  inb_S4x2000x26_S4x200x26_0_408_0 : ∀ a, (![0, 408, 0] : Fin 3 → Nat) a + S4x200x26.size a ≤ S4x2000x26.size a
  inb_S4x2000x26_S4x200x26_0_409_0 : ∀ a, (![0, 409, 0] : Fin 3 → Nat) a + S4x200x26.size a ≤ S4x2000x26.size a
  inb_S4x2000x494_S4x200x494_0_400_0 : ∀ a, (![0, 400, 0] : Fin 3 → Nat) a + S4x200x494.size a ≤ S4x2000x494.size a
  inb_S4x2000x26_S4x200x26_0_591_0 : ∀ a, (![0, 591, 0] : Fin 3 → Nat) a + S4x200x26.size a ≤ S4x2000x26.size a
  inb_S4x2000x26_S4x200x26_0_592_0 : ∀ a, (![0, 592, 0] : Fin 3 → Nat) a + S4x200x26.size a ≤ S4x2000x26.size a
  inb_S4x2000x26_S4x200x26_0_593_0 : ∀ a, (![0, 593, 0] : Fin 3 → Nat) a + S4x200x26.size a ≤ S4x2000x26.size a
  inb_S4x2000x26_S4x200x26_0_594_0 : ∀ a, (![0, 594, 0] : Fin 3 → Nat) a + S4x200x26.size a ≤ S4x2000x26.size a
  inb_S4x2000x26_S4x200x26_0_595_0 : ∀ a, (![0, 595, 0] : Fin 3 → Nat) a + S4x200x26.size a ≤ S4x2000x26.size a
  inb_S4x2000x26_S4x200x26_0_596_0 : ∀ a, (![0, 596, 0] : Fin 3 → Nat) a + S4x200x26.size a ≤ S4x2000x26.size a
  inb_S4x2000x26_S4x200x26_0_597_0 : ∀ a, (![0, 597, 0] : Fin 3 → Nat) a + S4x200x26.size a ≤ S4x2000x26.size a
  inb_S4x2000x26_S4x200x26_0_598_0 : ∀ a, (![0, 598, 0] : Fin 3 → Nat) a + S4x200x26.size a ≤ S4x2000x26.size a
  inb_S4x2000x26_S4x200x26_0_599_0 : ∀ a, (![0, 599, 0] : Fin 3 → Nat) a + S4x200x26.size a ≤ S4x2000x26.size a
  inb_S4x2000x26_S4x200x26_0_600_0 : ∀ a, (![0, 600, 0] : Fin 3 → Nat) a + S4x200x26.size a ≤ S4x2000x26.size a
  inb_S4x2000x26_S4x200x26_0_601_0 : ∀ a, (![0, 601, 0] : Fin 3 → Nat) a + S4x200x26.size a ≤ S4x2000x26.size a
  inb_S4x2000x26_S4x200x26_0_602_0 : ∀ a, (![0, 602, 0] : Fin 3 → Nat) a + S4x200x26.size a ≤ S4x2000x26.size a
  inb_S4x2000x26_S4x200x26_0_603_0 : ∀ a, (![0, 603, 0] : Fin 3 → Nat) a + S4x200x26.size a ≤ S4x2000x26.size a
  inb_S4x2000x26_S4x200x26_0_604_0 : ∀ a, (![0, 604, 0] : Fin 3 → Nat) a + S4x200x26.size a ≤ S4x2000x26.size a
  inb_S4x2000x26_S4x200x26_0_605_0 : ∀ a, (![0, 605, 0] : Fin 3 → Nat) a + S4x200x26.size a ≤ S4x2000x26.size a
  inb_S4x2000x26_S4x200x26_0_606_0 : ∀ a, (![0, 606, 0] : Fin 3 → Nat) a + S4x200x26.size a ≤ S4x2000x26.size a
  inb_S4x2000x26_S4x200x26_0_607_0 : ∀ a, (![0, 607, 0] : Fin 3 → Nat) a + S4x200x26.size a ≤ S4x2000x26.size a
  inb_S4x2000x26_S4x200x26_0_608_0 : ∀ a, (![0, 608, 0] : Fin 3 → Nat) a + S4x200x26.size a ≤ S4x2000x26.size a
  inb_S4x2000x26_S4x200x26_0_609_0 : ∀ a, (![0, 609, 0] : Fin 3 → Nat) a + S4x200x26.size a ≤ S4x2000x26.size a
  inb_S4x2000x494_S4x200x494_0_600_0 : ∀ a, (![0, 600, 0] : Fin 3 → Nat) a + S4x200x494.size a ≤ S4x2000x494.size a
  inb_S4x2000x26_S4x200x26_0_791_0 : ∀ a, (![0, 791, 0] : Fin 3 → Nat) a + S4x200x26.size a ≤ S4x2000x26.size a
  inb_S4x2000x26_S4x200x26_0_792_0 : ∀ a, (![0, 792, 0] : Fin 3 → Nat) a + S4x200x26.size a ≤ S4x2000x26.size a
  inb_S4x2000x26_S4x200x26_0_793_0 : ∀ a, (![0, 793, 0] : Fin 3 → Nat) a + S4x200x26.size a ≤ S4x2000x26.size a
  inb_S4x2000x26_S4x200x26_0_794_0 : ∀ a, (![0, 794, 0] : Fin 3 → Nat) a + S4x200x26.size a ≤ S4x2000x26.size a
  inb_S4x2000x26_S4x200x26_0_795_0 : ∀ a, (![0, 795, 0] : Fin 3 → Nat) a + S4x200x26.size a ≤ S4x2000x26.size a
  inb_S4x2000x26_S4x200x26_0_796_0 : ∀ a, (![0, 796, 0] : Fin 3 → Nat) a + S4x200x26.size a ≤ S4x2000x26.size a
  inb_S4x2000x26_S4x200x26_0_797_0 : ∀ a, (![0, 797, 0] : Fin 3 → Nat) a + S4x200x26.size a ≤ S4x2000x26.size a
  inb_S4x2000x26_S4x200x26_0_798_0 : ∀ a, (![0, 798, 0] : Fin 3 → Nat) a + S4x200x26.size a ≤ S4x2000x26.size a
  inb_S4x2000x26_S4x200x26_0_799_0 : ∀ a, (![0, 799, 0] : Fin 3 → Nat) a + S4x200x26.size a ≤ S4x2000x26.size a
  inb_S4x2000x26_S4x200x26_0_800_0 : ∀ a, (![0, 800, 0] : Fin 3 → Nat) a + S4x200x26.size a ≤ S4x2000x26.size a
  inb_S4x2000x26_S4x200x26_0_801_0 : ∀ a, (![0, 801, 0] : Fin 3 → Nat) a + S4x200x26.size a ≤ S4x2000x26.size a
  inb_S4x2000x26_S4x200x26_0_802_0 : ∀ a, (![0, 802, 0] : Fin 3 → Nat) a + S4x200x26.size a ≤ S4x2000x26.size a
  inb_S4x2000x26_S4x200x26_0_803_0 : ∀ a, (![0, 803, 0] : Fin 3 → Nat) a + S4x200x26.size a ≤ S4x2000x26.size a
  inb_S4x2000x26_S4x200x26_0_804_0 : ∀ a, (![0, 804, 0] : Fin 3 → Nat) a + S4x200x26.size a ≤ S4x2000x26.size a
  inb_S4x2000x26_S4x200x26_0_805_0 : ∀ a, (![0, 805, 0] : Fin 3 → Nat) a + S4x200x26.size a ≤ S4x2000x26.size a
  inb_S4x2000x26_S4x200x26_0_806_0 : ∀ a, (![0, 806, 0] : Fin 3 → Nat) a + S4x200x26.size a ≤ S4x2000x26.size a
  inb_S4x2000x26_S4x200x26_0_807_0 : ∀ a, (![0, 807, 0] : Fin 3 → Nat) a + S4x200x26.size a ≤ S4x2000x26.size a
  inb_S4x2000x26_S4x200x26_0_808_0 : ∀ a, (![0, 808, 0] : Fin 3 → Nat) a + S4x200x26.size a ≤ S4x2000x26.size a
  inb_S4x2000x26_S4x200x26_0_809_0 : ∀ a, (![0, 809, 0] : Fin 3 → Nat) a + S4x200x26.size a ≤ S4x2000x26.size a
  inb_S4x2000x494_S4x200x494_0_800_0 : ∀ a, (![0, 800, 0] : Fin 3 → Nat) a + S4x200x494.size a ≤ S4x2000x494.size a
  inb_S4x2000x26_S4x200x26_0_991_0 : ∀ a, (![0, 991, 0] : Fin 3 → Nat) a + S4x200x26.size a ≤ S4x2000x26.size a
  inb_S4x2000x26_S4x200x26_0_992_0 : ∀ a, (![0, 992, 0] : Fin 3 → Nat) a + S4x200x26.size a ≤ S4x2000x26.size a
  inb_S4x2000x26_S4x200x26_0_993_0 : ∀ a, (![0, 993, 0] : Fin 3 → Nat) a + S4x200x26.size a ≤ S4x2000x26.size a
  inb_S4x2000x26_S4x200x26_0_994_0 : ∀ a, (![0, 994, 0] : Fin 3 → Nat) a + S4x200x26.size a ≤ S4x2000x26.size a
  inb_S4x2000x26_S4x200x26_0_995_0 : ∀ a, (![0, 995, 0] : Fin 3 → Nat) a + S4x200x26.size a ≤ S4x2000x26.size a
  inb_S4x2000x26_S4x200x26_0_996_0 : ∀ a, (![0, 996, 0] : Fin 3 → Nat) a + S4x200x26.size a ≤ S4x2000x26.size a
  inb_S4x2000x26_S4x200x26_0_997_0 : ∀ a, (![0, 997, 0] : Fin 3 → Nat) a + S4x200x26.size a ≤ S4x2000x26.size a
  inb_S4x2000x26_S4x200x26_0_998_0 : ∀ a, (![0, 998, 0] : Fin 3 → Nat) a + S4x200x26.size a ≤ S4x2000x26.size a
  inb_S4x2000x26_S4x200x26_0_999_0 : ∀ a, (![0, 999, 0] : Fin 3 → Nat) a + S4x200x26.size a ≤ S4x2000x26.size a
  inb_S4x2000x26_S4x200x26_0_1000_0 : ∀ a, (![0, 1000, 0] : Fin 3 → Nat) a + S4x200x26.size a ≤ S4x2000x26.size a
  inb_S4x2000x26_S4x200x26_0_1001_0 : ∀ a, (![0, 1001, 0] : Fin 3 → Nat) a + S4x200x26.size a ≤ S4x2000x26.size a
  inb_S4x2000x26_S4x200x26_0_1002_0 : ∀ a, (![0, 1002, 0] : Fin 3 → Nat) a + S4x200x26.size a ≤ S4x2000x26.size a
  inb_S4x2000x26_S4x200x26_0_1003_0 : ∀ a, (![0, 1003, 0] : Fin 3 → Nat) a + S4x200x26.size a ≤ S4x2000x26.size a
  inb_S4x2000x26_S4x200x26_0_1004_0 : ∀ a, (![0, 1004, 0] : Fin 3 → Nat) a + S4x200x26.size a ≤ S4x2000x26.size a
  inb_S4x2000x26_S4x200x26_0_1005_0 : ∀ a, (![0, 1005, 0] : Fin 3 → Nat) a + S4x200x26.size a ≤ S4x2000x26.size a
  inb_S4x2000x26_S4x200x26_0_1006_0 : ∀ a, (![0, 1006, 0] : Fin 3 → Nat) a + S4x200x26.size a ≤ S4x2000x26.size a
  inb_S4x2000x26_S4x200x26_0_1007_0 : ∀ a, (![0, 1007, 0] : Fin 3 → Nat) a + S4x200x26.size a ≤ S4x2000x26.size a
  inb_S4x2000x26_S4x200x26_0_1008_0 : ∀ a, (![0, 1008, 0] : Fin 3 → Nat) a + S4x200x26.size a ≤ S4x2000x26.size a
  inb_S4x2000x26_S4x200x26_0_1009_0 : ∀ a, (![0, 1009, 0] : Fin 3 → Nat) a + S4x200x26.size a ≤ S4x2000x26.size a
  inb_S4x2000x494_S4x200x494_0_1000_0 : ∀ a, (![0, 1000, 0] : Fin 3 → Nat) a + S4x200x494.size a ≤ S4x2000x494.size a
  inb_S4x2000x26_S4x200x26_0_1191_0 : ∀ a, (![0, 1191, 0] : Fin 3 → Nat) a + S4x200x26.size a ≤ S4x2000x26.size a
  inb_S4x2000x26_S4x200x26_0_1192_0 : ∀ a, (![0, 1192, 0] : Fin 3 → Nat) a + S4x200x26.size a ≤ S4x2000x26.size a
  inb_S4x2000x26_S4x200x26_0_1193_0 : ∀ a, (![0, 1193, 0] : Fin 3 → Nat) a + S4x200x26.size a ≤ S4x2000x26.size a
  inb_S4x2000x26_S4x200x26_0_1194_0 : ∀ a, (![0, 1194, 0] : Fin 3 → Nat) a + S4x200x26.size a ≤ S4x2000x26.size a
  inb_S4x2000x26_S4x200x26_0_1195_0 : ∀ a, (![0, 1195, 0] : Fin 3 → Nat) a + S4x200x26.size a ≤ S4x2000x26.size a
  inb_S4x2000x26_S4x200x26_0_1196_0 : ∀ a, (![0, 1196, 0] : Fin 3 → Nat) a + S4x200x26.size a ≤ S4x2000x26.size a
  inb_S4x2000x26_S4x200x26_0_1197_0 : ∀ a, (![0, 1197, 0] : Fin 3 → Nat) a + S4x200x26.size a ≤ S4x2000x26.size a
  inb_S4x2000x26_S4x200x26_0_1198_0 : ∀ a, (![0, 1198, 0] : Fin 3 → Nat) a + S4x200x26.size a ≤ S4x2000x26.size a
  inb_S4x2000x26_S4x200x26_0_1199_0 : ∀ a, (![0, 1199, 0] : Fin 3 → Nat) a + S4x200x26.size a ≤ S4x2000x26.size a
  inb_S4x2000x26_S4x200x26_0_1200_0 : ∀ a, (![0, 1200, 0] : Fin 3 → Nat) a + S4x200x26.size a ≤ S4x2000x26.size a
  inb_S4x2000x26_S4x200x26_0_1201_0 : ∀ a, (![0, 1201, 0] : Fin 3 → Nat) a + S4x200x26.size a ≤ S4x2000x26.size a
  inb_S4x2000x26_S4x200x26_0_1202_0 : ∀ a, (![0, 1202, 0] : Fin 3 → Nat) a + S4x200x26.size a ≤ S4x2000x26.size a
  inb_S4x2000x26_S4x200x26_0_1203_0 : ∀ a, (![0, 1203, 0] : Fin 3 → Nat) a + S4x200x26.size a ≤ S4x2000x26.size a
  inb_S4x2000x26_S4x200x26_0_1204_0 : ∀ a, (![0, 1204, 0] : Fin 3 → Nat) a + S4x200x26.size a ≤ S4x2000x26.size a
  inb_S4x2000x26_S4x200x26_0_1205_0 : ∀ a, (![0, 1205, 0] : Fin 3 → Nat) a + S4x200x26.size a ≤ S4x2000x26.size a
  inb_S4x2000x26_S4x200x26_0_1206_0 : ∀ a, (![0, 1206, 0] : Fin 3 → Nat) a + S4x200x26.size a ≤ S4x2000x26.size a
  inb_S4x2000x26_S4x200x26_0_1207_0 : ∀ a, (![0, 1207, 0] : Fin 3 → Nat) a + S4x200x26.size a ≤ S4x2000x26.size a
  inb_S4x2000x26_S4x200x26_0_1208_0 : ∀ a, (![0, 1208, 0] : Fin 3 → Nat) a + S4x200x26.size a ≤ S4x2000x26.size a
  inb_S4x2000x26_S4x200x26_0_1209_0 : ∀ a, (![0, 1209, 0] : Fin 3 → Nat) a + S4x200x26.size a ≤ S4x2000x26.size a
  inb_S4x2000x494_S4x200x494_0_1200_0 : ∀ a, (![0, 1200, 0] : Fin 3 → Nat) a + S4x200x494.size a ≤ S4x2000x494.size a
  inb_S4x2000x26_S4x200x26_0_1391_0 : ∀ a, (![0, 1391, 0] : Fin 3 → Nat) a + S4x200x26.size a ≤ S4x2000x26.size a
  inb_S4x2000x26_S4x200x26_0_1392_0 : ∀ a, (![0, 1392, 0] : Fin 3 → Nat) a + S4x200x26.size a ≤ S4x2000x26.size a
  inb_S4x2000x26_S4x200x26_0_1393_0 : ∀ a, (![0, 1393, 0] : Fin 3 → Nat) a + S4x200x26.size a ≤ S4x2000x26.size a
  inb_S4x2000x26_S4x200x26_0_1394_0 : ∀ a, (![0, 1394, 0] : Fin 3 → Nat) a + S4x200x26.size a ≤ S4x2000x26.size a
  inb_S4x2000x26_S4x200x26_0_1395_0 : ∀ a, (![0, 1395, 0] : Fin 3 → Nat) a + S4x200x26.size a ≤ S4x2000x26.size a
  inb_S4x2000x26_S4x200x26_0_1396_0 : ∀ a, (![0, 1396, 0] : Fin 3 → Nat) a + S4x200x26.size a ≤ S4x2000x26.size a
  inb_S4x2000x26_S4x200x26_0_1397_0 : ∀ a, (![0, 1397, 0] : Fin 3 → Nat) a + S4x200x26.size a ≤ S4x2000x26.size a
  inb_S4x2000x26_S4x200x26_0_1398_0 : ∀ a, (![0, 1398, 0] : Fin 3 → Nat) a + S4x200x26.size a ≤ S4x2000x26.size a
  inb_S4x2000x26_S4x200x26_0_1399_0 : ∀ a, (![0, 1399, 0] : Fin 3 → Nat) a + S4x200x26.size a ≤ S4x2000x26.size a
  inb_S4x2000x26_S4x200x26_0_1400_0 : ∀ a, (![0, 1400, 0] : Fin 3 → Nat) a + S4x200x26.size a ≤ S4x2000x26.size a
  inb_S4x2000x26_S4x200x26_0_1401_0 : ∀ a, (![0, 1401, 0] : Fin 3 → Nat) a + S4x200x26.size a ≤ S4x2000x26.size a
  inb_S4x2000x26_S4x200x26_0_1402_0 : ∀ a, (![0, 1402, 0] : Fin 3 → Nat) a + S4x200x26.size a ≤ S4x2000x26.size a
  inb_S4x2000x26_S4x200x26_0_1403_0 : ∀ a, (![0, 1403, 0] : Fin 3 → Nat) a + S4x200x26.size a ≤ S4x2000x26.size a
  inb_S4x2000x26_S4x200x26_0_1404_0 : ∀ a, (![0, 1404, 0] : Fin 3 → Nat) a + S4x200x26.size a ≤ S4x2000x26.size a
  inb_S4x2000x26_S4x200x26_0_1405_0 : ∀ a, (![0, 1405, 0] : Fin 3 → Nat) a + S4x200x26.size a ≤ S4x2000x26.size a
  inb_S4x2000x26_S4x200x26_0_1406_0 : ∀ a, (![0, 1406, 0] : Fin 3 → Nat) a + S4x200x26.size a ≤ S4x2000x26.size a
  inb_S4x2000x26_S4x200x26_0_1407_0 : ∀ a, (![0, 1407, 0] : Fin 3 → Nat) a + S4x200x26.size a ≤ S4x2000x26.size a
  inb_S4x2000x26_S4x200x26_0_1408_0 : ∀ a, (![0, 1408, 0] : Fin 3 → Nat) a + S4x200x26.size a ≤ S4x2000x26.size a
  inb_S4x2000x26_S4x200x26_0_1409_0 : ∀ a, (![0, 1409, 0] : Fin 3 → Nat) a + S4x200x26.size a ≤ S4x2000x26.size a
  inb_S4x2000x494_S4x200x494_0_1400_0 : ∀ a, (![0, 1400, 0] : Fin 3 → Nat) a + S4x200x494.size a ≤ S4x2000x494.size a
  inb_S4x2000x26_S4x200x26_0_1591_0 : ∀ a, (![0, 1591, 0] : Fin 3 → Nat) a + S4x200x26.size a ≤ S4x2000x26.size a
  inb_S4x2000x26_S4x200x26_0_1592_0 : ∀ a, (![0, 1592, 0] : Fin 3 → Nat) a + S4x200x26.size a ≤ S4x2000x26.size a
  inb_S4x2000x26_S4x200x26_0_1593_0 : ∀ a, (![0, 1593, 0] : Fin 3 → Nat) a + S4x200x26.size a ≤ S4x2000x26.size a
  inb_S4x2000x26_S4x200x26_0_1594_0 : ∀ a, (![0, 1594, 0] : Fin 3 → Nat) a + S4x200x26.size a ≤ S4x2000x26.size a
  inb_S4x2000x26_S4x200x26_0_1595_0 : ∀ a, (![0, 1595, 0] : Fin 3 → Nat) a + S4x200x26.size a ≤ S4x2000x26.size a
  inb_S4x2000x26_S4x200x26_0_1596_0 : ∀ a, (![0, 1596, 0] : Fin 3 → Nat) a + S4x200x26.size a ≤ S4x2000x26.size a
  inb_S4x2000x26_S4x200x26_0_1597_0 : ∀ a, (![0, 1597, 0] : Fin 3 → Nat) a + S4x200x26.size a ≤ S4x2000x26.size a
  inb_S4x2000x26_S4x200x26_0_1598_0 : ∀ a, (![0, 1598, 0] : Fin 3 → Nat) a + S4x200x26.size a ≤ S4x2000x26.size a
  inb_S4x2000x26_S4x200x26_0_1599_0 : ∀ a, (![0, 1599, 0] : Fin 3 → Nat) a + S4x200x26.size a ≤ S4x2000x26.size a
  inb_S4x2000x26_S4x200x26_0_1600_0 : ∀ a, (![0, 1600, 0] : Fin 3 → Nat) a + S4x200x26.size a ≤ S4x2000x26.size a
  inb_S4x2000x26_S4x200x26_0_1601_0 : ∀ a, (![0, 1601, 0] : Fin 3 → Nat) a + S4x200x26.size a ≤ S4x2000x26.size a
  inb_S4x2000x26_S4x200x26_0_1602_0 : ∀ a, (![0, 1602, 0] : Fin 3 → Nat) a + S4x200x26.size a ≤ S4x2000x26.size a
  inb_S4x2000x26_S4x200x26_0_1603_0 : ∀ a, (![0, 1603, 0] : Fin 3 → Nat) a + S4x200x26.size a ≤ S4x2000x26.size a
  inb_S4x2000x26_S4x200x26_0_1604_0 : ∀ a, (![0, 1604, 0] : Fin 3 → Nat) a + S4x200x26.size a ≤ S4x2000x26.size a
  inb_S4x2000x26_S4x200x26_0_1605_0 : ∀ a, (![0, 1605, 0] : Fin 3 → Nat) a + S4x200x26.size a ≤ S4x2000x26.size a
  inb_S4x2000x26_S4x200x26_0_1606_0 : ∀ a, (![0, 1606, 0] : Fin 3 → Nat) a + S4x200x26.size a ≤ S4x2000x26.size a
  inb_S4x2000x26_S4x200x26_0_1607_0 : ∀ a, (![0, 1607, 0] : Fin 3 → Nat) a + S4x200x26.size a ≤ S4x2000x26.size a
  inb_S4x2000x26_S4x200x26_0_1608_0 : ∀ a, (![0, 1608, 0] : Fin 3 → Nat) a + S4x200x26.size a ≤ S4x2000x26.size a
  inb_S4x2000x26_S4x200x26_0_1609_0 : ∀ a, (![0, 1609, 0] : Fin 3 → Nat) a + S4x200x26.size a ≤ S4x2000x26.size a
  inb_S4x2000x494_S4x200x494_0_1600_0 : ∀ a, (![0, 1600, 0] : Fin 3 → Nat) a + S4x200x494.size a ≤ S4x2000x494.size a
  inb_S4x2000x26_S4x200x26_0_1791_0 : ∀ a, (![0, 1791, 0] : Fin 3 → Nat) a + S4x200x26.size a ≤ S4x2000x26.size a
  inb_S4x2000x26_S4x200x26_0_1792_0 : ∀ a, (![0, 1792, 0] : Fin 3 → Nat) a + S4x200x26.size a ≤ S4x2000x26.size a
  inb_S4x2000x26_S4x200x26_0_1793_0 : ∀ a, (![0, 1793, 0] : Fin 3 → Nat) a + S4x200x26.size a ≤ S4x2000x26.size a
  inb_S4x2000x26_S4x200x26_0_1794_0 : ∀ a, (![0, 1794, 0] : Fin 3 → Nat) a + S4x200x26.size a ≤ S4x2000x26.size a
  inb_S4x2000x26_S4x200x26_0_1795_0 : ∀ a, (![0, 1795, 0] : Fin 3 → Nat) a + S4x200x26.size a ≤ S4x2000x26.size a
  inb_S4x2000x26_S4x200x26_0_1796_0 : ∀ a, (![0, 1796, 0] : Fin 3 → Nat) a + S4x200x26.size a ≤ S4x2000x26.size a
  inb_S4x2000x26_S4x200x26_0_1797_0 : ∀ a, (![0, 1797, 0] : Fin 3 → Nat) a + S4x200x26.size a ≤ S4x2000x26.size a
  inb_S4x2000x26_S4x200x26_0_1798_0 : ∀ a, (![0, 1798, 0] : Fin 3 → Nat) a + S4x200x26.size a ≤ S4x2000x26.size a
  inb_S4x2000x26_S4x200x26_0_1799_0 : ∀ a, (![0, 1799, 0] : Fin 3 → Nat) a + S4x200x26.size a ≤ S4x2000x26.size a
  inb_S4x2000x26_S4x200x26_0_1800_0 : ∀ a, (![0, 1800, 0] : Fin 3 → Nat) a + S4x200x26.size a ≤ S4x2000x26.size a
  inb_S4x2000x26_S4x199x26_0_1801_0 : ∀ a, (![0, 1801, 0] : Fin 3 → Nat) a + S4x199x26.size a ≤ S4x2000x26.size a
  concatenates_S4x199x26_S4x1x26_S4x200x26_d1 : Shape.Concatenates [S4x199x26, S4x1x26] S4x200x26 1
  inb_S4x2000x26_S4x198x26_0_1802_0 : ∀ a, (![0, 1802, 0] : Fin 3 → Nat) a + S4x198x26.size a ≤ S4x2000x26.size a
  concatenates_S4x198x26_S4x2x26_S4x200x26_d1 : Shape.Concatenates [S4x198x26, S4x2x26] S4x200x26 1
  inb_S4x2000x26_S4x197x26_0_1803_0 : ∀ a, (![0, 1803, 0] : Fin 3 → Nat) a + S4x197x26.size a ≤ S4x2000x26.size a
  concatenates_S4x197x26_S4x3x26_S4x200x26_d1 : Shape.Concatenates [S4x197x26, S4x3x26] S4x200x26 1
  inb_S4x2000x26_S4x196x26_0_1804_0 : ∀ a, (![0, 1804, 0] : Fin 3 → Nat) a + S4x196x26.size a ≤ S4x2000x26.size a
  concatenates_S4x196x26_S4x4x26_S4x200x26_d1 : Shape.Concatenates [S4x196x26, S4x4x26] S4x200x26 1
  inb_S4x2000x26_S4x195x26_0_1805_0 : ∀ a, (![0, 1805, 0] : Fin 3 → Nat) a + S4x195x26.size a ≤ S4x2000x26.size a
  concatenates_S4x195x26_S4x5x26_S4x200x26_d1 : Shape.Concatenates [S4x195x26, S4x5x26] S4x200x26 1
  inb_S4x2000x26_S4x194x26_0_1806_0 : ∀ a, (![0, 1806, 0] : Fin 3 → Nat) a + S4x194x26.size a ≤ S4x2000x26.size a
  concatenates_S4x194x26_S4x6x26_S4x200x26_d1 : Shape.Concatenates [S4x194x26, S4x6x26] S4x200x26 1
  inb_S4x2000x26_S4x193x26_0_1807_0 : ∀ a, (![0, 1807, 0] : Fin 3 → Nat) a + S4x193x26.size a ≤ S4x2000x26.size a
  concatenates_S4x193x26_S4x7x26_S4x200x26_d1 : Shape.Concatenates [S4x193x26, S4x7x26] S4x200x26 1
  inb_S4x2000x26_S4x192x26_0_1808_0 : ∀ a, (![0, 1808, 0] : Fin 3 → Nat) a + S4x192x26.size a ≤ S4x2000x26.size a
  concatenates_S4x192x26_S4x8x26_S4x200x26_d1 : Shape.Concatenates [S4x192x26, S4x8x26] S4x200x26 1
  inb_S4x2000x26_S4x191x26_0_1809_0 : ∀ a, (![0, 1809, 0] : Fin 3 → Nat) a + S4x191x26.size a ≤ S4x2000x26.size a
  concatenates_S4x191x26_S4x9x26_S4x200x26_d1 : Shape.Concatenates [S4x191x26, S4x9x26] S4x200x26 1
  inb_S4x2000x494_S4x200x494_0_1800_0 : ∀ a, (![0, 1800, 0] : Fin 3 → Nat) a + S4x200x494.size a ≤ S4x2000x494.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2000x26.size a ≤ S64x2000x26.size a
  hwx0_0 : ∀ i : grid0.Coords, EltTy.bits .f32 = 32 ∨ (Rect.block (s := S64x2000x26) S4x2000x26.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2000x494.size a ≤ S64x2000x494.size a
  hwx0_1 : ∀ i : grid0.Coords, EltTy.bits .f32 = 32 ∨ (Rect.block (s := S64x2000x494) S4x2000x494.size (cc0_transform_1 i) (hinb0_1 i)).WholeWords (EltTy.packing .f32)

variable [Facts₀]

abbrev win0_0 : Pipeline.Window sig grid0 :=
  Pipeline.Window.ofSpec (Memref.whole main_arg0) S4x2000x26.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x2000x494.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x2000x26 : Shape := ⟨3, ![64, 2000, 26]⟩
abbrev S_ : Shape := ⟨0, ![]⟩
abbrev S64x2018x26 : Shape := ⟨3, ![64, 2018, 26]⟩
abbrev S64x2000x416 : Shape := ⟨3, ![64, 2000, 416]⟩
abbrev S64x2000x78 : Shape := ⟨3, ![64, 2000, 78]⟩
abbrev S64x2000x494 : Shape := ⟨3, ![64, 2000, 494]⟩

abbrev nBuf : Space → Nat
  | .hbm => 26
  | .vmem => 0
  | .smem => 0
  | _ => 0

abbrev bufTy : (tb : Table) → Fin (tcTables nBuf tb) → BufTy
  | .hbm, ⟨0, _⟩ => ⟨S64x2000x26, .f32⟩
  | .hbm, ⟨1, _⟩ => ⟨S_, .i32⟩
  | .hbm, ⟨2, _⟩ => ⟨S_, .f32⟩
  | .hbm, ⟨3, _⟩ => ⟨S64x2018x26, .f32⟩
  | .hbm, ⟨4, _⟩ => ⟨S64x2000x26, .f32⟩
  | .hbm, ⟨5, _⟩ => ⟨S64x2000x26, .f32⟩
  | .hbm, ⟨6, _⟩ => ⟨S64x2000x26, .f32⟩
  | .hbm, ⟨7, _⟩ => ⟨S64x2000x26, .f32⟩
  | .hbm, ⟨8, _⟩ => ⟨S64x2000x26, .f32⟩
  | .hbm, ⟨9, _⟩ => ⟨S64x2000x26, .f32⟩
  | .hbm, ⟨10, _⟩ => ⟨S64x2000x26, .f32⟩
  | .hbm, ⟨11, _⟩ => ⟨S64x2000x26, .f32⟩
  | .hbm, ⟨12, _⟩ => ⟨S64x2000x26, .f32⟩
  | .hbm, ⟨13, _⟩ => ⟨S64x2000x26, .f32⟩
  | .hbm, ⟨14, _⟩ => ⟨S64x2000x26, .f32⟩
  | .hbm, ⟨15, _⟩ => ⟨S64x2000x26, .f32⟩
  | .hbm, ⟨16, _⟩ => ⟨S64x2000x26, .f32⟩
  | .hbm, ⟨17, _⟩ => ⟨S64x2000x26, .f32⟩
  | .hbm, ⟨18, _⟩ => ⟨S64x2000x26, .f32⟩
  | .hbm, ⟨19, _⟩ => ⟨S64x2000x26, .f32⟩
  | .hbm, ⟨20, _⟩ => ⟨S64x2000x26, .f32⟩
  | .hbm, ⟨21, _⟩ => ⟨S64x2000x26, .f32⟩
  | .hbm, ⟨22, _⟩ => ⟨S64x2000x26, .f32⟩
  | .hbm, ⟨23, _⟩ => ⟨S64x2000x416, .f32⟩
  | .hbm, ⟨24, _⟩ => ⟨S64x2000x78, .f32⟩
  | .hbm, ⟨25, _⟩ => ⟨S64x2000x494, .f32⟩
  | _, _ => ⟨S64x2000x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]

class Facts₀ : Prop where
  pads_S64x2000x26_S64x2018x26_000_990_000 : S64x2000x26.Pads (![0, 9, 0] : Fin 3 → Nat) ![0, 9, 0] ![0, 0, 0] S64x2018x26
  h_S_ : 0 < S_.numel
  slices_S64x2018x26_S64x2000x26_0_0_0 : S64x2018x26.Slices ![0, 0, 0] S64x2000x26
  slices_S64x2018x26_S64x2000x26_0_1_0 : S64x2018x26.Slices ![0, 1, 0] S64x2000x26
  slices_S64x2018x26_S64x2000x26_0_2_0 : S64x2018x26.Slices ![0, 2, 0] S64x2000x26
  slices_S64x2018x26_S64x2000x26_0_3_0 : S64x2018x26.Slices ![0, 3, 0] S64x2000x26
  slices_S64x2018x26_S64x2000x26_0_4_0 : S64x2018x26.Slices ![0, 4, 0] S64x2000x26
  slices_S64x2018x26_S64x2000x26_0_5_0 : S64x2018x26.Slices ![0, 5, 0] S64x2000x26
  slices_S64x2018x26_S64x2000x26_0_6_0 : S64x2018x26.Slices ![0, 6, 0] S64x2000x26
  slices_S64x2018x26_S64x2000x26_0_7_0 : S64x2018x26.Slices ![0, 7, 0] S64x2000x26
  slices_S64x2018x26_S64x2000x26_0_8_0 : S64x2018x26.Slices ![0, 8, 0] S64x2000x26
  slices_S64x2018x26_S64x2000x26_0_9_0 : S64x2018x26.Slices ![0, 9, 0] S64x2000x26
  slices_S64x2018x26_S64x2000x26_0_10_0 : S64x2018x26.Slices ![0, 10, 0] S64x2000x26
  slices_S64x2018x26_S64x2000x26_0_11_0 : S64x2018x26.Slices ![0, 11, 0] S64x2000x26
  slices_S64x2018x26_S64x2000x26_0_12_0 : S64x2018x26.Slices ![0, 12, 0] S64x2000x26
  slices_S64x2018x26_S64x2000x26_0_13_0 : S64x2018x26.Slices ![0, 13, 0] S64x2000x26
  slices_S64x2018x26_S64x2000x26_0_14_0 : S64x2018x26.Slices ![0, 14, 0] S64x2000x26
  slices_S64x2018x26_S64x2000x26_0_15_0 : S64x2018x26.Slices ![0, 15, 0] S64x2000x26
  slices_S64x2018x26_S64x2000x26_0_16_0 : S64x2018x26.Slices ![0, 16, 0] S64x2000x26
  slices_S64x2018x26_S64x2000x26_0_17_0 : S64x2018x26.Slices ![0, 17, 0] S64x2000x26
  slices_S64x2018x26_S64x2000x26_0_18_0 : S64x2018x26.Slices ![0, 18, 0] S64x2000x26
  concatenates_S64x2000x26_S64x2000x26_S64x2000x26_S64x2000x26_S64x2000x26_S64x2000x26_S64x2000x26_S64x2000x26_S64x2000x26_S64x2000x26_S64x2000x26_S64x2000x26_S64x2000x26_S64x2000x26_S64x2000x26_S64x2000x26_S64x2000x416_d2 : Shape.Concatenates [S64x2000x26, S64x2000x26, S64x2000x26, S64x2000x26, S64x2000x26, S64x2000x26, S64x2000x26, S64x2000x26, S64x2000x26, S64x2000x26, S64x2000x26, S64x2000x26, S64x2000x26, S64x2000x26, S64x2000x26, S64x2000x26] S64x2000x416 2
  concatenates_S64x2000x26_S64x2000x26_S64x2000x26_S64x2000x78_d2 : Shape.Concatenates [S64x2000x26, S64x2000x26, S64x2000x26] S64x2000x78 2
  concatenates_S64x2000x416_S64x2000x78_S64x2000x494_d2 : Shape.Concatenates [S64x2000x416, S64x2000x78] S64x2000x494 2

variable [Facts₀]

class Facts : Prop extends Facts₀ where

variable [Facts]
-- ==== Proof.Frames.lean ====
/-
  Context windows of a framed signal, as one function of the signal.

  The signal is an array x[b, r, c] of B × 2000 × 26 entries.  Pad it with nine rows of a fixed value z
  before row 0 and nine after row 1999, and lay, for every row r, the nineteen padded rows r, r+1, …, r+18
  side by side: entry [b, r, 26·w + c] of the result is the padded signal at row r + w, that is x[b, r+w-9, c]
  when 9 ≤ r + w < 2009 and z otherwise.  This file states that function (frames) through its nineteen
  column groups (rowsAt: group w is the padded signal shifted up by w rows), and proves the layout facts both
  programs are built from: a run of rows loaded from the signal is a shifted group; so is such a run with rows
  of z joined above or below it when the shift runs off the signal; groups joined side by side, read at an
  index, are the group the lane falls in, at the lane's position inside it.
-/
import Idealize.ShloMosaic.Lib.Pipeline.Value
import Idealize.ShloMosaic.Lib.ValueIdx
import Idealize.ShloMosaic.Lib.KernelVsHost

noncomputable section

namespace Cert.Frames

open Idealize.ShloMosaic

variable {α : Type}

/-- R rows of the padded signal starting at padded row s (padded row p is the signal's row p - 9 for
    9 ≤ p < 2009, and z outside). -/
def rowsAt {B R : Nat} (z : α) (x : (⟨3, ![B, 2000, 26]⟩ : Shape).Idx → α) (s : Nat) :
    (⟨3, ![B, R, 26]⟩ : Shape).Idx → α :=
  fun i => if h : 9 ≤ s + (i 1).val ∧ s + (i 1).val < 2009 then
      x (ValueIdx.ix3 ⟨(i 0).val, (i 0).isLt⟩ ⟨s + (i 1).val - 9, by omega⟩ ⟨(i 2).val, (i 2).isLt⟩)
    else z

/-- A padded row inside the signal reads the signal. -/
theorem rowsAt_of_inside {B R : Nat} (z : α) (x : (⟨3, ![B, 2000, 26]⟩ : Shape).Idx → α) (s : Nat)
    (i : (⟨3, ![B, R, 26]⟩ : Shape).Idx) (k : (⟨3, ![B, 2000, 26]⟩ : Shape).Idx)
    (h0 : (k 0).val = (i 0).val) (h1 : (k 1).val + 9 = s + (i 1).val) (h2 : (k 2).val = (i 2).val) :
    rowsAt z x s i = x k := by
  have hk : (k 1).val < 2000 := (k 1).isLt
  unfold rowsAt
  rw [dif_pos ⟨by omega, by omega⟩]
  refine congrArg x (funext fun a => Fin.ext ?_)
  match a with
  | ⟨0, _⟩ => exact h0.symm
  | ⟨1, _⟩ => show s + (i 1).val - 9 = (k 1).val; omega
  | ⟨2, _⟩ => exact h2.symm

/-- A padded row outside the signal reads the padding value. -/
theorem rowsAt_of_outside {B R : Nat} (z : α) (x : (⟨3, ![B, 2000, 26]⟩ : Shape).Idx → α) (s : Nat)
    (i : (⟨3, ![B, R, 26]⟩ : Shape).Idx) (h : s + (i 1).val < 9 ∨ 2009 ≤ s + (i 1).val) :
    rowsAt z x s i = z := by
  unfold rowsAt
  rw [dif_neg (by omega)]

/-- The nineteen shifted groups side by side: lane l of row r is group l / 26 at lane l % 26. -/
def frames {B : Nat} (z : α) (x : (⟨3, ![B, 2000, 26]⟩ : Shape).Idx → α) :
    (⟨3, ![B, 2000, 494]⟩ : Shape).Idx → α :=
  fun j => rowsAt (R := 2000) z x ((j 2).val / 26)
    (ValueIdx.ix3 ⟨(j 0).val, (j 0).isLt⟩ ⟨(j 1).val, (j 1).isLt⟩ ⟨(j 2).val % 26, Nat.mod_lt _ (by decide)⟩)

end Cert.Frames

end
-- ==== Proof.Pieces.lean ====
/-
  The pieces the programs build the context windows from, each read as a shifted group of the padded signal
  (Frames.lean): a run of rows loaded from a block of the signal; that run with rows of the padding value joined
  above it (the shift starts before the signal) or below it (the shift ends after the signal); and groups joined
  side by side along the lanes.
-/
import proofs.«141431_j25666724560969_2_alg».proof.Proof.Frames

noncomputable section

namespace Cert.Frames

open Idealize.ShloMosaic

/-- Two reads of the padded signal at the same batch entry, the same padded row and the same lane agree,
    whatever the heights of the groups they are taken from. -/
theorem rowsAt_congr {α : Type} {B R R' : Nat} (z : α) (x : (⟨3, ![B, 2000, 26]⟩ : Shape).Idx → α) (s s' : Nat)
    (i : (⟨3, ![B, R, 26]⟩ : Shape).Idx) (i' : (⟨3, ![B, R', 26]⟩ : Shape).Idx)
    (h0 : (i 0).val = (i' 0).val) (h1 : s + (i 1).val = s' + (i' 1).val) (h2 : (i 2).val = (i' 2).val) :
    rowsAt z x s i = rowsAt z x s' i' := by
  by_cases hc : 9 ≤ s + (i 1).val ∧ s + (i 1).val < 2009
  · rw [rowsAt_of_inside z x s i
        (ValueIdx.ix3 ⟨(i 0).val, (i 0).isLt⟩ ⟨s + (i 1).val - 9, by omega⟩ ⟨(i 2).val, (i 2).isLt⟩) rfl
        (by show s + (i 1).val - 9 + 9 = s + (i 1).val; omega) rfl,
      rowsAt_of_inside z x s' i'
        (ValueIdx.ix3 ⟨(i 0).val, (i 0).isLt⟩ ⟨s + (i 1).val - 9, by omega⟩ ⟨(i 2).val, (i 2).isLt⟩) h0
        (by show s + (i 1).val - 9 + 9 = s' + (i' 1).val; omega) h2]
  · rw [rowsAt_of_outside z x s i (by omega), rowsAt_of_outside z x s' i' (by omega)]

variable {Val : EltTy → Type} {e : EltTy}

/-- R rows of a block of the signal from row o on are the padded signal from padded row o + 9 on: all inside. -/
theorem ld_rows {R : Nat} (z : Val e) (x : (⟨3, ![4, 2000, 26]⟩ : Shape).Idx → Val e) (o : Nat)
    (inb : ∀ a, (![0, o, 0] : Fin 3 → Nat) a + (⟨3, ![4, R, 26]⟩ : Shape).size a ≤ (⟨3, ![4, 2000, 26]⟩ : Shape).size a) :
    View.ld (Val := Val) (e' := e) x (Rect.unit (s := ⟨3, ![4, 2000, 26]⟩) ![0, o, 0] (⟨3, ![4, R, 26]⟩ : Shape).size inb)
      = rowsAt (R := R) z x (o + 9) := by
  have hR : o + R ≤ 2000 := inb 1
  funext i
  have h1 : (i 1).val < R := (i 1).isLt
  refine (rowsAt_of_inside z x (o + 9) i _ ?_ ?_ ?_).symm
  · show 0 + 1 * (i 0).val = (i 0).val; omega
  · show o + 1 * (i 1).val + 9 = o + 9 + (i 1).val; omega
  · show 0 + 1 * (i 2).val = (i 2).val; omega

/-- P rows of the padding value above the block's first R rows (P + R = 200, P ≤ 9) are the padded signal from
    padded row 9 - P on: the first P rows fall before the signal. -/
theorem pad_above (z : Val e) (x : (⟨3, ![4, 2000, 26]⟩ : Shape).Idx → Val e) (P R : Nat) (hP : P ≤ 9) (hPR : P + R = 200)
    (h : Shape.Concatenates [(⟨3, ![4, P, 26]⟩ : Shape), ⟨3, ![4, R, 26]⟩] ⟨3, ![4, 200, 26]⟩ 1)
    (inb : ∀ a, (![0, 0, 0] : Fin 3 → Nat) a + (⟨3, ![4, R, 26]⟩ : Shape).size a ≤ (⟨3, ![4, 2000, 26]⟩ : Shape).size a) :
    concatenate (⟨3, ![4, 200, 26]⟩ : Shape) 1
        [⟨⟨3, ![4, P, 26]⟩, broadcast ⟨3, ![4, P, 26]⟩ z⟩,
         ⟨⟨3, ![4, R, 26]⟩, View.ld (Val := Val) (e' := e) x
            (Rect.unit (s := ⟨3, ![4, 2000, 26]⟩) ![0, 0, 0] (⟨3, ![4, R, 26]⟩ : Shape).size inb)⟩] h
      = rowsAt (R := 200) z x (9 - P) := by
  funext i
  have hi1 : (i 1).val < 200 := (i 1).isLt
  by_cases hlt : (i 1).val < P
  · rw [concatenate_pair_apply_left 1 _ _ h i rfl
        (ValueIdx.ix3 ⟨(i 0).val, (i 0).isLt⟩ ⟨(i 1).val, hlt⟩ ⟨(i 2).val, (i 2).isLt⟩)
        (fun b => match b with | ⟨0, _⟩ => rfl | ⟨1, _⟩ => rfl | ⟨2, _⟩ => rfl)]
    exact (rowsAt_of_outside z x (9 - P) i (Or.inl (by omega))).symm
  · rw [concatenate_pair_apply_right 1 _ _ h i rfl rfl
        (ValueIdx.ix3 ⟨(i 0).val, (i 0).isLt⟩ ⟨(i 1).val - P, by omega⟩ ⟨(i 2).val, (i 2).isLt⟩)
        (fun b hb => match b, hb with | ⟨0, _⟩, _ => rfl | ⟨1, _⟩, hb => absurd rfl hb | ⟨2, _⟩, _ => rfl)
        (by show (i 1).val - P + P = (i 1).val; omega)]
    rw [ld_rows z x 0 inb]
    exact rowsAt_congr z x _ _ _ i rfl (by show 0 + 9 + ((i 1).val - P) = 9 - P + (i 1).val; omega) rfl

/-- The block's last R rows (from row o, o + R = 2000) with P rows of the padding value below (R + P = 200) are the
    padded signal from padded row o + 9 on: the last P rows fall after the signal. -/
theorem pad_below (z : Val e) (x : (⟨3, ![4, 2000, 26]⟩ : Shape).Idx → Val e) (R P o : Nat) (hRP : R + P = 200) (ho : o + R = 2000)
    (h : Shape.Concatenates [(⟨3, ![4, R, 26]⟩ : Shape), ⟨3, ![4, P, 26]⟩] ⟨3, ![4, 200, 26]⟩ 1)
    (inb : ∀ a, (![0, o, 0] : Fin 3 → Nat) a + (⟨3, ![4, R, 26]⟩ : Shape).size a ≤ (⟨3, ![4, 2000, 26]⟩ : Shape).size a) :
    concatenate (⟨3, ![4, 200, 26]⟩ : Shape) 1
        [⟨⟨3, ![4, R, 26]⟩, View.ld (Val := Val) (e' := e) x
            (Rect.unit (s := ⟨3, ![4, 2000, 26]⟩) ![0, o, 0] (⟨3, ![4, R, 26]⟩ : Shape).size inb)⟩,
         ⟨⟨3, ![4, P, 26]⟩, broadcast ⟨3, ![4, P, 26]⟩ z⟩] h
      = rowsAt (R := 200) z x (o + 9) := by
  funext i
  have hi1 : (i 1).val < 200 := (i 1).isLt
  by_cases hlt : (i 1).val < R
  · rw [concatenate_pair_apply_left 1 _ _ h i rfl
        (ValueIdx.ix3 ⟨(i 0).val, (i 0).isLt⟩ ⟨(i 1).val, hlt⟩ ⟨(i 2).val, (i 2).isLt⟩)
        (fun b => match b with | ⟨0, _⟩ => rfl | ⟨1, _⟩ => rfl | ⟨2, _⟩ => rfl)]
    rw [ld_rows z x o inb]
    exact rowsAt_congr z x _ _ _ i rfl rfl rfl
  · rw [concatenate_pair_apply_right 1 _ _ h i rfl rfl
        (ValueIdx.ix3 ⟨(i 0).val, (i 0).isLt⟩ ⟨(i 1).val - R, by omega⟩ ⟨(i 2).val, (i 2).isLt⟩)
        (fun b hb => match b, hb with | ⟨0, _⟩, _ => rfl | ⟨1, _⟩, hb => absurd rfl hb | ⟨2, _⟩, _ => rfl)
        (by show (i 1).val - R + R = (i 1).val; omega)]
    exact (rowsAt_of_outside z x (o + 9) i (Or.inr (by omega))).symm

/-- N groups of 26 lanes joined side by side, read at an index: the group the lane falls in, at the lane's position
    inside it. -/
theorem lanes_apply {α : Type} {B R N : Nat} (f : Fin N → ((⟨3, ![B, R, 26]⟩ : Shape).Idx → α))
    (h : Shape.Concatenates ((List.ofFn fun n : Fin N => (⟨⟨3, ![B, R, 26]⟩, f n⟩ : (s : Shape) × (s.Idx → α))).map (·.1))
      ⟨3, ![B, R, 26 * N]⟩ 2)
    (j : (⟨3, ![B, R, 26 * N]⟩ : Shape).Idx) :
    concatenate ⟨3, ![B, R, 26 * N]⟩ 2 (List.ofFn fun n : Fin N => (⟨⟨3, ![B, R, 26]⟩, f n⟩ : (s : Shape) × (s.Idx → α))) h j
      = f ⟨(j 2).val / 26, Nat.div_lt_of_lt_mul (j 2).isLt⟩
          (ValueIdx.ix3 ⟨(j 0).val, (j 0).isLt⟩ ⟨(j 1).val, (j 1).isLt⟩ ⟨(j 2).val % 26, Nat.mod_lt _ (by decide)⟩) :=
  concatenate_ofFn_apply 2 f h rfl 26 rfl j _ rfl _ rfl
    (fun b hb => match b, hb with | ⟨0, _⟩, _ => rfl | ⟨1, _⟩, _ => rfl | ⟨2, _⟩, hb => absurd rfl hb)

/-- Nineteen groups of R rows, group k the padded signal from padded row base + k on, joined side by side, are rows
    base, …, base + R - 1 of the context windows. -/
theorem lanes_rows {α : Type} {R : Nat} (z : α) (x : (⟨3, ![4, 2000, 26]⟩ : Shape).Idx → α) (base : Nat)
    (f : Fin 19 → ((⟨3, ![4, R, 26]⟩ : Shape).Idx → α)) (hf : ∀ k : Fin 19, f k = rowsAt (R := R) z x (base + k.val))
    (h : Shape.Concatenates ((List.ofFn fun n : Fin 19 => (⟨⟨3, ![4, R, 26]⟩, f n⟩ : (s : Shape) × (s.Idx → α))).map (·.1))
      ⟨3, ![4, R, 26 * 19]⟩ 2)
    (inb : ∀ a, (![0, base, 0] : Fin 3 → Nat) a + (⟨3, ![4, R, 494]⟩ : Shape).size a ≤ (⟨3, ![4, 2000, 494]⟩ : Shape).size a)
    (j : (⟨3, ![4, R, 26 * 19]⟩ : Shape).Idx) :
    concatenate ⟨3, ![4, R, 26 * 19]⟩ 2 (List.ofFn fun n : Fin 19 => (⟨⟨3, ![4, R, 26]⟩, f n⟩ : (s : Shape) × (s.Idx → α))) h j
      = frames z x ((Rect.unit (s := ⟨3, ![4, 2000, 494]⟩) ![0, base, 0] (⟨3, ![4, R, 494]⟩ : Shape).size inb).emb j) := by
  rw [lanes_apply f h j, hf]
  unfold frames
  refine rowsAt_congr z x _ _ _ _ ?_ ?_ ?_
  · show (j 0).val = 0 + 1 * (j 0).val; omega
  · show base + (j 2).val / 26 + (j 1).val = (0 + 1 * (j 2).val) / 26 + (base + 1 * (j 1).val)
    rw [Nat.zero_add, Nat.one_mul, Nat.one_mul]; omega
  · show (j 2).val % 26 = (0 + 1 * (j 2).val) % 26
    rw [Nat.zero_add, Nat.one_mul]

end Cert.Frames

end
-- ==== Proof.KernelBlock.lean ====
/-
  What the kernel body leaves in its output block, as one function of its input block.

  The body handles the block's 2000 rows in ten runs of 200.  For each run it forms nineteen groups of 26 lanes,
  group w being the input block's rows shifted by w - 9 (rows loaded from the block, with rows of zeros joined above
  in the first run and below in the last, where the shift leaves the block), joins them side by side and stores
  the 494 lanes over the run's rows.  Each stored run is therefore that run of rows of the context windows of the
  input block (Frames.lean), and since the ten runs tile the output block, the block is the context windows of the
  input block.
-/
import proofs.«141431_j25666724560969_2_alg».proof.Proof.Gen.KernelIdeal.Frame
import proofs.«141431_j25666724560969_2_alg».proof.Proof.Pieces

set_option maxRecDepth 16384

noncomputable section

namespace Cert.KernelIdeal.Windows

open Idealize.ShloMosaic Cert.KernelIdeal Cert.KernelIdeal.Gen Cert.Frames

variable {F : FTy → Type} [FloatOps F]

/-- The value the body pads with: the float whose bits are all zero. -/
abbrev zeroF : F .f32 := Scalar.ofBits .f32 0x00000000#32

/-- Rows 0 to 199 of the output block: group w holds the input block's rows from row 0 + w - 9 on (zeros where that is before row 0). -/
theorem run0 (x0 : Vec F S4x2000x26 .f32) (y : r0_19.shape.Idx) :
    k0_pay10 (k0_pay2 (View.ld x0 r0_0)) (k0_pay3 (View.ld x0 r0_1)) (k0_pay4 (View.ld x0 r0_2)) (k0_pay5 (View.ld x0 r0_3)) (k0_pay6 (View.ld x0 r0_4)) (k0_pay7 (View.ld x0 r0_5)) (k0_pay8 (View.ld x0 r0_6)) (k0_pay9 (View.ld x0 r0_7)) (View.ld x0 r0_8) (View.ld x0 r0_9) (View.ld x0 r0_10) (View.ld x0 r0_11) (View.ld x0 r0_12) (View.ld x0 r0_13) (View.ld x0 r0_14) (View.ld x0 r0_15) (View.ld x0 r0_16) (View.ld x0 r0_17) (View.ld x0 r0_18) y
      = frames (zeroF (F := F)) x0 (r0_19.emb y) := by
  refine lanes_rows (α := Elt F .f32) (zeroF (F := F)) x0 0
    ![k0_pay2 (View.ld x0 r0_0),
      k0_pay3 (View.ld x0 r0_1),
      k0_pay4 (View.ld x0 r0_2),
      k0_pay5 (View.ld x0 r0_3),
      k0_pay6 (View.ld x0 r0_4),
      k0_pay7 (View.ld x0 r0_5),
      k0_pay8 (View.ld x0 r0_6),
      k0_pay9 (View.ld x0 r0_7),
      concatenate S4x200x26 1 [⟨S4x1x26, broadcast S4x1x26 (zeroF (F := F))⟩, ⟨S4x199x26, View.ld x0 r0_8⟩] concatenates_S4x1x26_S4x199x26_S4x200x26_d1,
      View.ld x0 r0_9,
      View.ld x0 r0_10,
      View.ld x0 r0_11,
      View.ld x0 r0_12,
      View.ld x0 r0_13,
      View.ld x0 r0_14,
      View.ld x0 r0_15,
      View.ld x0 r0_16,
      View.ld x0 r0_17,
      View.ld x0 r0_18]
    (fun k => ?_) concatenates_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x494_d2 _ y
  fin_cases k
  · exact pad_above (zeroF (F := F)) x0 9 191 (by decide) (by decide) concatenates_S4x9x26_S4x191x26_S4x200x26_d1 _
  · exact pad_above (zeroF (F := F)) x0 8 192 (by decide) (by decide) concatenates_S4x8x26_S4x192x26_S4x200x26_d1 _
  · exact pad_above (zeroF (F := F)) x0 7 193 (by decide) (by decide) concatenates_S4x7x26_S4x193x26_S4x200x26_d1 _
  · exact pad_above (zeroF (F := F)) x0 6 194 (by decide) (by decide) concatenates_S4x6x26_S4x194x26_S4x200x26_d1 _
  · exact pad_above (zeroF (F := F)) x0 5 195 (by decide) (by decide) concatenates_S4x5x26_S4x195x26_S4x200x26_d1 _
  · exact pad_above (zeroF (F := F)) x0 4 196 (by decide) (by decide) concatenates_S4x4x26_S4x196x26_S4x200x26_d1 _
  · exact pad_above (zeroF (F := F)) x0 3 197 (by decide) (by decide) concatenates_S4x3x26_S4x197x26_S4x200x26_d1 _
  · exact pad_above (zeroF (F := F)) x0 2 198 (by decide) (by decide) concatenates_S4x2x26_S4x198x26_S4x200x26_d1 _
  · exact pad_above (zeroF (F := F)) x0 1 199 (by decide) (by decide) concatenates_S4x1x26_S4x199x26_S4x200x26_d1 _
  · exact ld_rows (zeroF (F := F)) x0 0 _
  · exact ld_rows (zeroF (F := F)) x0 1 _
  · exact ld_rows (zeroF (F := F)) x0 2 _
  · exact ld_rows (zeroF (F := F)) x0 3 _
  · exact ld_rows (zeroF (F := F)) x0 4 _
  · exact ld_rows (zeroF (F := F)) x0 5 _
  · exact ld_rows (zeroF (F := F)) x0 6 _
  · exact ld_rows (zeroF (F := F)) x0 7 _
  · exact ld_rows (zeroF (F := F)) x0 8 _
  · exact ld_rows (zeroF (F := F)) x0 9 _

/-- Rows 200 to 399 of the output block: group w holds the input block's rows from row 200 + w - 9 on. -/
theorem run1 (x0 : Vec F S4x2000x26 .f32) (y : r0_39.shape.Idx) :
    k0_pay11 (View.ld x0 r0_20) (View.ld x0 r0_21) (View.ld x0 r0_22) (View.ld x0 r0_23) (View.ld x0 r0_24) (View.ld x0 r0_25) (View.ld x0 r0_26) (View.ld x0 r0_27) (View.ld x0 r0_28) (View.ld x0 r0_29) (View.ld x0 r0_30) (View.ld x0 r0_31) (View.ld x0 r0_32) (View.ld x0 r0_33) (View.ld x0 r0_34) (View.ld x0 r0_35) (View.ld x0 r0_36) (View.ld x0 r0_37) (View.ld x0 r0_38) y
      = frames (zeroF (F := F)) x0 (r0_39.emb y) := by
  refine lanes_rows (α := Elt F .f32) (zeroF (F := F)) x0 200
    ![View.ld x0 r0_20,
      View.ld x0 r0_21,
      View.ld x0 r0_22,
      View.ld x0 r0_23,
      View.ld x0 r0_24,
      View.ld x0 r0_25,
      View.ld x0 r0_26,
      View.ld x0 r0_27,
      View.ld x0 r0_28,
      View.ld x0 r0_29,
      View.ld x0 r0_30,
      View.ld x0 r0_31,
      View.ld x0 r0_32,
      View.ld x0 r0_33,
      View.ld x0 r0_34,
      View.ld x0 r0_35,
      View.ld x0 r0_36,
      View.ld x0 r0_37,
      View.ld x0 r0_38]
    (fun k => ?_) concatenates_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x494_d2 _ y
  fin_cases k
  · exact ld_rows (zeroF (F := F)) x0 191 _
  · exact ld_rows (zeroF (F := F)) x0 192 _
  · exact ld_rows (zeroF (F := F)) x0 193 _
  · exact ld_rows (zeroF (F := F)) x0 194 _
  · exact ld_rows (zeroF (F := F)) x0 195 _
  · exact ld_rows (zeroF (F := F)) x0 196 _
  · exact ld_rows (zeroF (F := F)) x0 197 _
  · exact ld_rows (zeroF (F := F)) x0 198 _
  · exact ld_rows (zeroF (F := F)) x0 199 _
  · exact ld_rows (zeroF (F := F)) x0 200 _
  · exact ld_rows (zeroF (F := F)) x0 201 _
  · exact ld_rows (zeroF (F := F)) x0 202 _
  · exact ld_rows (zeroF (F := F)) x0 203 _
  · exact ld_rows (zeroF (F := F)) x0 204 _
  · exact ld_rows (zeroF (F := F)) x0 205 _
  · exact ld_rows (zeroF (F := F)) x0 206 _
  · exact ld_rows (zeroF (F := F)) x0 207 _
  · exact ld_rows (zeroF (F := F)) x0 208 _
  · exact ld_rows (zeroF (F := F)) x0 209 _

/-- Rows 400 to 599 of the output block: group w holds the input block's rows from row 400 + w - 9 on. -/
theorem run2 (x0 : Vec F S4x2000x26 .f32) (y : r0_59.shape.Idx) :
    k0_pay12 (View.ld x0 r0_40) (View.ld x0 r0_41) (View.ld x0 r0_42) (View.ld x0 r0_43) (View.ld x0 r0_44) (View.ld x0 r0_45) (View.ld x0 r0_46) (View.ld x0 r0_47) (View.ld x0 r0_48) (View.ld x0 r0_49) (View.ld x0 r0_50) (View.ld x0 r0_51) (View.ld x0 r0_52) (View.ld x0 r0_53) (View.ld x0 r0_54) (View.ld x0 r0_55) (View.ld x0 r0_56) (View.ld x0 r0_57) (View.ld x0 r0_58) y
      = frames (zeroF (F := F)) x0 (r0_59.emb y) := by
  refine lanes_rows (α := Elt F .f32) (zeroF (F := F)) x0 400
    ![View.ld x0 r0_40,
      View.ld x0 r0_41,
      View.ld x0 r0_42,
      View.ld x0 r0_43,
      View.ld x0 r0_44,
      View.ld x0 r0_45,
      View.ld x0 r0_46,
      View.ld x0 r0_47,
      View.ld x0 r0_48,
      View.ld x0 r0_49,
      View.ld x0 r0_50,
      View.ld x0 r0_51,
      View.ld x0 r0_52,
      View.ld x0 r0_53,
      View.ld x0 r0_54,
      View.ld x0 r0_55,
      View.ld x0 r0_56,
      View.ld x0 r0_57,
      View.ld x0 r0_58]
    (fun k => ?_) concatenates_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x494_d2 _ y
  fin_cases k
  · exact ld_rows (zeroF (F := F)) x0 391 _
  · exact ld_rows (zeroF (F := F)) x0 392 _
  · exact ld_rows (zeroF (F := F)) x0 393 _
  · exact ld_rows (zeroF (F := F)) x0 394 _
  · exact ld_rows (zeroF (F := F)) x0 395 _
  · exact ld_rows (zeroF (F := F)) x0 396 _
  · exact ld_rows (zeroF (F := F)) x0 397 _
  · exact ld_rows (zeroF (F := F)) x0 398 _
  · exact ld_rows (zeroF (F := F)) x0 399 _
  · exact ld_rows (zeroF (F := F)) x0 400 _
  · exact ld_rows (zeroF (F := F)) x0 401 _
  · exact ld_rows (zeroF (F := F)) x0 402 _
  · exact ld_rows (zeroF (F := F)) x0 403 _
  · exact ld_rows (zeroF (F := F)) x0 404 _
  · exact ld_rows (zeroF (F := F)) x0 405 _
  · exact ld_rows (zeroF (F := F)) x0 406 _
  · exact ld_rows (zeroF (F := F)) x0 407 _
  · exact ld_rows (zeroF (F := F)) x0 408 _
  · exact ld_rows (zeroF (F := F)) x0 409 _

/-- Rows 600 to 799 of the output block: group w holds the input block's rows from row 600 + w - 9 on. -/
theorem run3 (x0 : Vec F S4x2000x26 .f32) (y : r0_79.shape.Idx) :
    k0_pay13 (View.ld x0 r0_60) (View.ld x0 r0_61) (View.ld x0 r0_62) (View.ld x0 r0_63) (View.ld x0 r0_64) (View.ld x0 r0_65) (View.ld x0 r0_66) (View.ld x0 r0_67) (View.ld x0 r0_68) (View.ld x0 r0_69) (View.ld x0 r0_70) (View.ld x0 r0_71) (View.ld x0 r0_72) (View.ld x0 r0_73) (View.ld x0 r0_74) (View.ld x0 r0_75) (View.ld x0 r0_76) (View.ld x0 r0_77) (View.ld x0 r0_78) y
      = frames (zeroF (F := F)) x0 (r0_79.emb y) := by
  refine lanes_rows (α := Elt F .f32) (zeroF (F := F)) x0 600
    ![View.ld x0 r0_60,
      View.ld x0 r0_61,
      View.ld x0 r0_62,
      View.ld x0 r0_63,
      View.ld x0 r0_64,
      View.ld x0 r0_65,
      View.ld x0 r0_66,
      View.ld x0 r0_67,
      View.ld x0 r0_68,
      View.ld x0 r0_69,
      View.ld x0 r0_70,
      View.ld x0 r0_71,
      View.ld x0 r0_72,
      View.ld x0 r0_73,
      View.ld x0 r0_74,
      View.ld x0 r0_75,
      View.ld x0 r0_76,
      View.ld x0 r0_77,
      View.ld x0 r0_78]
    (fun k => ?_) concatenates_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x494_d2 _ y
  fin_cases k
  · exact ld_rows (zeroF (F := F)) x0 591 _
  · exact ld_rows (zeroF (F := F)) x0 592 _
  · exact ld_rows (zeroF (F := F)) x0 593 _
  · exact ld_rows (zeroF (F := F)) x0 594 _
  · exact ld_rows (zeroF (F := F)) x0 595 _
  · exact ld_rows (zeroF (F := F)) x0 596 _
  · exact ld_rows (zeroF (F := F)) x0 597 _
  · exact ld_rows (zeroF (F := F)) x0 598 _
  · exact ld_rows (zeroF (F := F)) x0 599 _
  · exact ld_rows (zeroF (F := F)) x0 600 _
  · exact ld_rows (zeroF (F := F)) x0 601 _
  · exact ld_rows (zeroF (F := F)) x0 602 _
  · exact ld_rows (zeroF (F := F)) x0 603 _
  · exact ld_rows (zeroF (F := F)) x0 604 _
  · exact ld_rows (zeroF (F := F)) x0 605 _
  · exact ld_rows (zeroF (F := F)) x0 606 _
  · exact ld_rows (zeroF (F := F)) x0 607 _
  · exact ld_rows (zeroF (F := F)) x0 608 _
  · exact ld_rows (zeroF (F := F)) x0 609 _

/-- Rows 800 to 999 of the output block: group w holds the input block's rows from row 800 + w - 9 on. -/
theorem run4 (x0 : Vec F S4x2000x26 .f32) (y : r0_99.shape.Idx) :
    k0_pay14 (View.ld x0 r0_80) (View.ld x0 r0_81) (View.ld x0 r0_82) (View.ld x0 r0_83) (View.ld x0 r0_84) (View.ld x0 r0_85) (View.ld x0 r0_86) (View.ld x0 r0_87) (View.ld x0 r0_88) (View.ld x0 r0_89) (View.ld x0 r0_90) (View.ld x0 r0_91) (View.ld x0 r0_92) (View.ld x0 r0_93) (View.ld x0 r0_94) (View.ld x0 r0_95) (View.ld x0 r0_96) (View.ld x0 r0_97) (View.ld x0 r0_98) y
      = frames (zeroF (F := F)) x0 (r0_99.emb y) := by
  refine lanes_rows (α := Elt F .f32) (zeroF (F := F)) x0 800
    ![View.ld x0 r0_80,
      View.ld x0 r0_81,
      View.ld x0 r0_82,
      View.ld x0 r0_83,
      View.ld x0 r0_84,
      View.ld x0 r0_85,
      View.ld x0 r0_86,
      View.ld x0 r0_87,
      View.ld x0 r0_88,
      View.ld x0 r0_89,
      View.ld x0 r0_90,
      View.ld x0 r0_91,
      View.ld x0 r0_92,
      View.ld x0 r0_93,
      View.ld x0 r0_94,
      View.ld x0 r0_95,
      View.ld x0 r0_96,
      View.ld x0 r0_97,
      View.ld x0 r0_98]
    (fun k => ?_) concatenates_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x494_d2 _ y
  fin_cases k
  · exact ld_rows (zeroF (F := F)) x0 791 _
  · exact ld_rows (zeroF (F := F)) x0 792 _
  · exact ld_rows (zeroF (F := F)) x0 793 _
  · exact ld_rows (zeroF (F := F)) x0 794 _
  · exact ld_rows (zeroF (F := F)) x0 795 _
  · exact ld_rows (zeroF (F := F)) x0 796 _
  · exact ld_rows (zeroF (F := F)) x0 797 _
  · exact ld_rows (zeroF (F := F)) x0 798 _
  · exact ld_rows (zeroF (F := F)) x0 799 _
  · exact ld_rows (zeroF (F := F)) x0 800 _
  · exact ld_rows (zeroF (F := F)) x0 801 _
  · exact ld_rows (zeroF (F := F)) x0 802 _
  · exact ld_rows (zeroF (F := F)) x0 803 _
  · exact ld_rows (zeroF (F := F)) x0 804 _
  · exact ld_rows (zeroF (F := F)) x0 805 _
  · exact ld_rows (zeroF (F := F)) x0 806 _
  · exact ld_rows (zeroF (F := F)) x0 807 _
  · exact ld_rows (zeroF (F := F)) x0 808 _
  · exact ld_rows (zeroF (F := F)) x0 809 _

/-- Rows 1000 to 1199 of the output block: group w holds the input block's rows from row 1000 + w - 9 on. -/
theorem run5 (x0 : Vec F S4x2000x26 .f32) (y : r0_119.shape.Idx) :
    k0_pay15 (View.ld x0 r0_100) (View.ld x0 r0_101) (View.ld x0 r0_102) (View.ld x0 r0_103) (View.ld x0 r0_104) (View.ld x0 r0_105) (View.ld x0 r0_106) (View.ld x0 r0_107) (View.ld x0 r0_108) (View.ld x0 r0_109) (View.ld x0 r0_110) (View.ld x0 r0_111) (View.ld x0 r0_112) (View.ld x0 r0_113) (View.ld x0 r0_114) (View.ld x0 r0_115) (View.ld x0 r0_116) (View.ld x0 r0_117) (View.ld x0 r0_118) y
      = frames (zeroF (F := F)) x0 (r0_119.emb y) := by
  refine lanes_rows (α := Elt F .f32) (zeroF (F := F)) x0 1000
    ![View.ld x0 r0_100,
      View.ld x0 r0_101,
      View.ld x0 r0_102,
      View.ld x0 r0_103,
      View.ld x0 r0_104,
      View.ld x0 r0_105,
      View.ld x0 r0_106,
      View.ld x0 r0_107,
      View.ld x0 r0_108,
      View.ld x0 r0_109,
      View.ld x0 r0_110,
      View.ld x0 r0_111,
      View.ld x0 r0_112,
      View.ld x0 r0_113,
      View.ld x0 r0_114,
      View.ld x0 r0_115,
      View.ld x0 r0_116,
      View.ld x0 r0_117,
      View.ld x0 r0_118]
    (fun k => ?_) concatenates_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x494_d2 _ y
  fin_cases k
  · exact ld_rows (zeroF (F := F)) x0 991 _
  · exact ld_rows (zeroF (F := F)) x0 992 _
  · exact ld_rows (zeroF (F := F)) x0 993 _
  · exact ld_rows (zeroF (F := F)) x0 994 _
  · exact ld_rows (zeroF (F := F)) x0 995 _
  · exact ld_rows (zeroF (F := F)) x0 996 _
  · exact ld_rows (zeroF (F := F)) x0 997 _
  · exact ld_rows (zeroF (F := F)) x0 998 _
  · exact ld_rows (zeroF (F := F)) x0 999 _
  · exact ld_rows (zeroF (F := F)) x0 1000 _
  · exact ld_rows (zeroF (F := F)) x0 1001 _
  · exact ld_rows (zeroF (F := F)) x0 1002 _
  · exact ld_rows (zeroF (F := F)) x0 1003 _
  · exact ld_rows (zeroF (F := F)) x0 1004 _
  · exact ld_rows (zeroF (F := F)) x0 1005 _
  · exact ld_rows (zeroF (F := F)) x0 1006 _
  · exact ld_rows (zeroF (F := F)) x0 1007 _
  · exact ld_rows (zeroF (F := F)) x0 1008 _
  · exact ld_rows (zeroF (F := F)) x0 1009 _

/-- Rows 1200 to 1399 of the output block: group w holds the input block's rows from row 1200 + w - 9 on. -/
theorem run6 (x0 : Vec F S4x2000x26 .f32) (y : r0_139.shape.Idx) :
    k0_pay16 (View.ld x0 r0_120) (View.ld x0 r0_121) (View.ld x0 r0_122) (View.ld x0 r0_123) (View.ld x0 r0_124) (View.ld x0 r0_125) (View.ld x0 r0_126) (View.ld x0 r0_127) (View.ld x0 r0_128) (View.ld x0 r0_129) (View.ld x0 r0_130) (View.ld x0 r0_131) (View.ld x0 r0_132) (View.ld x0 r0_133) (View.ld x0 r0_134) (View.ld x0 r0_135) (View.ld x0 r0_136) (View.ld x0 r0_137) (View.ld x0 r0_138) y
      = frames (zeroF (F := F)) x0 (r0_139.emb y) := by
  refine lanes_rows (α := Elt F .f32) (zeroF (F := F)) x0 1200
    ![View.ld x0 r0_120,
      View.ld x0 r0_121,
      View.ld x0 r0_122,
      View.ld x0 r0_123,
      View.ld x0 r0_124,
      View.ld x0 r0_125,
      View.ld x0 r0_126,
      View.ld x0 r0_127,
      View.ld x0 r0_128,
      View.ld x0 r0_129,
      View.ld x0 r0_130,
      View.ld x0 r0_131,
      View.ld x0 r0_132,
      View.ld x0 r0_133,
      View.ld x0 r0_134,
      View.ld x0 r0_135,
      View.ld x0 r0_136,
      View.ld x0 r0_137,
      View.ld x0 r0_138]
    (fun k => ?_) concatenates_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x494_d2 _ y
  fin_cases k
  · exact ld_rows (zeroF (F := F)) x0 1191 _
  · exact ld_rows (zeroF (F := F)) x0 1192 _
  · exact ld_rows (zeroF (F := F)) x0 1193 _
  · exact ld_rows (zeroF (F := F)) x0 1194 _
  · exact ld_rows (zeroF (F := F)) x0 1195 _
  · exact ld_rows (zeroF (F := F)) x0 1196 _
  · exact ld_rows (zeroF (F := F)) x0 1197 _
  · exact ld_rows (zeroF (F := F)) x0 1198 _
  · exact ld_rows (zeroF (F := F)) x0 1199 _
  · exact ld_rows (zeroF (F := F)) x0 1200 _
  · exact ld_rows (zeroF (F := F)) x0 1201 _
  · exact ld_rows (zeroF (F := F)) x0 1202 _
  · exact ld_rows (zeroF (F := F)) x0 1203 _
  · exact ld_rows (zeroF (F := F)) x0 1204 _
  · exact ld_rows (zeroF (F := F)) x0 1205 _
  · exact ld_rows (zeroF (F := F)) x0 1206 _
  · exact ld_rows (zeroF (F := F)) x0 1207 _
  · exact ld_rows (zeroF (F := F)) x0 1208 _
  · exact ld_rows (zeroF (F := F)) x0 1209 _

/-- Rows 1400 to 1599 of the output block: group w holds the input block's rows from row 1400 + w - 9 on. -/
theorem run7 (x0 : Vec F S4x2000x26 .f32) (y : r0_159.shape.Idx) :
    k0_pay17 (View.ld x0 r0_140) (View.ld x0 r0_141) (View.ld x0 r0_142) (View.ld x0 r0_143) (View.ld x0 r0_144) (View.ld x0 r0_145) (View.ld x0 r0_146) (View.ld x0 r0_147) (View.ld x0 r0_148) (View.ld x0 r0_149) (View.ld x0 r0_150) (View.ld x0 r0_151) (View.ld x0 r0_152) (View.ld x0 r0_153) (View.ld x0 r0_154) (View.ld x0 r0_155) (View.ld x0 r0_156) (View.ld x0 r0_157) (View.ld x0 r0_158) y
      = frames (zeroF (F := F)) x0 (r0_159.emb y) := by
  refine lanes_rows (α := Elt F .f32) (zeroF (F := F)) x0 1400
    ![View.ld x0 r0_140,
      View.ld x0 r0_141,
      View.ld x0 r0_142,
      View.ld x0 r0_143,
      View.ld x0 r0_144,
      View.ld x0 r0_145,
      View.ld x0 r0_146,
      View.ld x0 r0_147,
      View.ld x0 r0_148,
      View.ld x0 r0_149,
      View.ld x0 r0_150,
      View.ld x0 r0_151,
      View.ld x0 r0_152,
      View.ld x0 r0_153,
      View.ld x0 r0_154,
      View.ld x0 r0_155,
      View.ld x0 r0_156,
      View.ld x0 r0_157,
      View.ld x0 r0_158]
    (fun k => ?_) concatenates_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x494_d2 _ y
  fin_cases k
  · exact ld_rows (zeroF (F := F)) x0 1391 _
  · exact ld_rows (zeroF (F := F)) x0 1392 _
  · exact ld_rows (zeroF (F := F)) x0 1393 _
  · exact ld_rows (zeroF (F := F)) x0 1394 _
  · exact ld_rows (zeroF (F := F)) x0 1395 _
  · exact ld_rows (zeroF (F := F)) x0 1396 _
  · exact ld_rows (zeroF (F := F)) x0 1397 _
  · exact ld_rows (zeroF (F := F)) x0 1398 _
  · exact ld_rows (zeroF (F := F)) x0 1399 _
  · exact ld_rows (zeroF (F := F)) x0 1400 _
  · exact ld_rows (zeroF (F := F)) x0 1401 _
  · exact ld_rows (zeroF (F := F)) x0 1402 _
  · exact ld_rows (zeroF (F := F)) x0 1403 _
  · exact ld_rows (zeroF (F := F)) x0 1404 _
  · exact ld_rows (zeroF (F := F)) x0 1405 _
  · exact ld_rows (zeroF (F := F)) x0 1406 _
  · exact ld_rows (zeroF (F := F)) x0 1407 _
  · exact ld_rows (zeroF (F := F)) x0 1408 _
  · exact ld_rows (zeroF (F := F)) x0 1409 _

/-- Rows 1600 to 1799 of the output block: group w holds the input block's rows from row 1600 + w - 9 on. -/
theorem run8 (x0 : Vec F S4x2000x26 .f32) (y : r0_179.shape.Idx) :
    k0_pay18 (View.ld x0 r0_160) (View.ld x0 r0_161) (View.ld x0 r0_162) (View.ld x0 r0_163) (View.ld x0 r0_164) (View.ld x0 r0_165) (View.ld x0 r0_166) (View.ld x0 r0_167) (View.ld x0 r0_168) (View.ld x0 r0_169) (View.ld x0 r0_170) (View.ld x0 r0_171) (View.ld x0 r0_172) (View.ld x0 r0_173) (View.ld x0 r0_174) (View.ld x0 r0_175) (View.ld x0 r0_176) (View.ld x0 r0_177) (View.ld x0 r0_178) y
      = frames (zeroF (F := F)) x0 (r0_179.emb y) := by
  refine lanes_rows (α := Elt F .f32) (zeroF (F := F)) x0 1600
    ![View.ld x0 r0_160,
      View.ld x0 r0_161,
      View.ld x0 r0_162,
      View.ld x0 r0_163,
      View.ld x0 r0_164,
      View.ld x0 r0_165,
      View.ld x0 r0_166,
      View.ld x0 r0_167,
      View.ld x0 r0_168,
      View.ld x0 r0_169,
      View.ld x0 r0_170,
      View.ld x0 r0_171,
      View.ld x0 r0_172,
      View.ld x0 r0_173,
      View.ld x0 r0_174,
      View.ld x0 r0_175,
      View.ld x0 r0_176,
      View.ld x0 r0_177,
      View.ld x0 r0_178]
    (fun k => ?_) concatenates_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x494_d2 _ y
  fin_cases k
  · exact ld_rows (zeroF (F := F)) x0 1591 _
  · exact ld_rows (zeroF (F := F)) x0 1592 _
  · exact ld_rows (zeroF (F := F)) x0 1593 _
  · exact ld_rows (zeroF (F := F)) x0 1594 _
  · exact ld_rows (zeroF (F := F)) x0 1595 _
  · exact ld_rows (zeroF (F := F)) x0 1596 _
  · exact ld_rows (zeroF (F := F)) x0 1597 _
  · exact ld_rows (zeroF (F := F)) x0 1598 _
  · exact ld_rows (zeroF (F := F)) x0 1599 _
  · exact ld_rows (zeroF (F := F)) x0 1600 _
  · exact ld_rows (zeroF (F := F)) x0 1601 _
  · exact ld_rows (zeroF (F := F)) x0 1602 _
  · exact ld_rows (zeroF (F := F)) x0 1603 _
  · exact ld_rows (zeroF (F := F)) x0 1604 _
  · exact ld_rows (zeroF (F := F)) x0 1605 _
  · exact ld_rows (zeroF (F := F)) x0 1606 _
  · exact ld_rows (zeroF (F := F)) x0 1607 _
  · exact ld_rows (zeroF (F := F)) x0 1608 _
  · exact ld_rows (zeroF (F := F)) x0 1609 _

/-- Rows 1800 to 1999 of the output block: group w holds the input block's rows from row 1800 + w - 9 on (zeros where that is after row 1999). -/
theorem run9 (x0 : Vec F S4x2000x26 .f32) (y : r0_199.shape.Idx) :
    k0_pay1 (View.ld x0 r0_180) (View.ld x0 r0_181) (View.ld x0 r0_182) (View.ld x0 r0_183) (View.ld x0 r0_184) (View.ld x0 r0_185) (View.ld x0 r0_186) (View.ld x0 r0_187) (View.ld x0 r0_188) (View.ld x0 r0_189) (k0_pay19 (View.ld x0 r0_190)) (k0_pay20 (View.ld x0 r0_191)) (k0_pay21 (View.ld x0 r0_192)) (k0_pay22 (View.ld x0 r0_193)) (concatenate S4x200x26 1 [⟨S4x195x26, View.ld x0 r0_194⟩, ⟨S4x5x26, k0_pay23 (F := F)⟩] concatenates_S4x195x26_S4x5x26_S4x200x26_d1) (View.ld x0 r0_195) (View.ld x0 r0_196) (View.ld x0 r0_197) (View.ld x0 r0_198) y
      = frames (zeroF (F := F)) x0 (r0_199.emb y) := by
  refine lanes_rows (α := Elt F .f32) (zeroF (F := F)) x0 1800
    ![View.ld x0 r0_180,
      View.ld x0 r0_181,
      View.ld x0 r0_182,
      View.ld x0 r0_183,
      View.ld x0 r0_184,
      View.ld x0 r0_185,
      View.ld x0 r0_186,
      View.ld x0 r0_187,
      View.ld x0 r0_188,
      View.ld x0 r0_189,
      k0_pay19 (View.ld x0 r0_190),
      k0_pay20 (View.ld x0 r0_191),
      k0_pay21 (View.ld x0 r0_192),
      k0_pay22 (View.ld x0 r0_193),
      concatenate S4x200x26 1 [⟨S4x195x26, View.ld x0 r0_194⟩, ⟨S4x5x26, k0_pay23 (F := F)⟩] concatenates_S4x195x26_S4x5x26_S4x200x26_d1,
      concatenate S4x200x26 1 [⟨S4x194x26, View.ld x0 r0_195⟩, ⟨S4x6x26, broadcast S4x6x26 (zeroF (F := F))⟩] concatenates_S4x194x26_S4x6x26_S4x200x26_d1,
      concatenate S4x200x26 1 [⟨S4x193x26, View.ld x0 r0_196⟩, ⟨S4x7x26, broadcast S4x7x26 (zeroF (F := F))⟩] concatenates_S4x193x26_S4x7x26_S4x200x26_d1,
      concatenate S4x200x26 1 [⟨S4x192x26, View.ld x0 r0_197⟩, ⟨S4x8x26, broadcast S4x8x26 (zeroF (F := F))⟩] concatenates_S4x192x26_S4x8x26_S4x200x26_d1,
      concatenate S4x200x26 1 [⟨S4x191x26, View.ld x0 r0_198⟩, ⟨S4x9x26, broadcast S4x9x26 (zeroF (F := F))⟩] concatenates_S4x191x26_S4x9x26_S4x200x26_d1]
    (fun k => ?_) concatenates_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x26_S4x200x494_d2 _ y
  fin_cases k
  · exact ld_rows (zeroF (F := F)) x0 1791 _
  · exact ld_rows (zeroF (F := F)) x0 1792 _
  · exact ld_rows (zeroF (F := F)) x0 1793 _
  · exact ld_rows (zeroF (F := F)) x0 1794 _
  · exact ld_rows (zeroF (F := F)) x0 1795 _
  · exact ld_rows (zeroF (F := F)) x0 1796 _
  · exact ld_rows (zeroF (F := F)) x0 1797 _
  · exact ld_rows (zeroF (F := F)) x0 1798 _
  · exact ld_rows (zeroF (F := F)) x0 1799 _
  · exact ld_rows (zeroF (F := F)) x0 1800 _
  · exact pad_below (zeroF (F := F)) x0 199 1 1801 (by decide) (by decide) concatenates_S4x199x26_S4x1x26_S4x200x26_d1 _
  · exact pad_below (zeroF (F := F)) x0 198 2 1802 (by decide) (by decide) concatenates_S4x198x26_S4x2x26_S4x200x26_d1 _
  · exact pad_below (zeroF (F := F)) x0 197 3 1803 (by decide) (by decide) concatenates_S4x197x26_S4x3x26_S4x200x26_d1 _
  · exact pad_below (zeroF (F := F)) x0 196 4 1804 (by decide) (by decide) concatenates_S4x196x26_S4x4x26_S4x200x26_d1 _
  · exact pad_below (zeroF (F := F)) x0 195 5 1805 (by decide) (by decide) concatenates_S4x195x26_S4x5x26_S4x200x26_d1 _
  · exact pad_below (zeroF (F := F)) x0 194 6 1806 (by decide) (by decide) concatenates_S4x194x26_S4x6x26_S4x200x26_d1 _
  · exact pad_below (zeroF (F := F)) x0 193 7 1807 (by decide) (by decide) concatenates_S4x193x26_S4x7x26_S4x200x26_d1 _
  · exact pad_below (zeroF (F := F)) x0 192 8 1808 (by decide) (by decide) concatenates_S4x192x26_S4x8x26_S4x200x26_d1 _
  · exact pad_below (zeroF (F := F)) x0 191 9 1809 (by decide) (by decide) concatenates_S4x191x26_S4x9x26_S4x200x26_d1 _

/-- The output block after the body: the context windows of the input block. -/
theorem out_eq (x0 : Vec F S4x2000x26 .f32) : out0_1 x0 = frames (zeroF (F := F)) x0 := by
  funext y
  unfold out0_1
  refine View.canon_apply_of_pieces (frames (zeroF (F := F)) x0) _ ?_ y (cover0_1 _ _ _ _ _ _ _ _ _ _ y)
  refine List.forall_mem_cons.2 ⟨run9 x0, List.forall_mem_cons.2 ⟨run8 x0, List.forall_mem_cons.2 ⟨run7 x0,
    List.forall_mem_cons.2 ⟨run6 x0, List.forall_mem_cons.2 ⟨run5 x0, List.forall_mem_cons.2 ⟨run4 x0,
    List.forall_mem_cons.2 ⟨run3 x0, List.forall_mem_cons.2 ⟨run2 x0, List.forall_mem_cons.2 ⟨run1 x0,
    List.forall_mem_cons.2 ⟨run0 x0, fun _ h => absurd h List.not_mem_nil⟩⟩⟩⟩⟩⟩⟩⟩⟩⟩

end Cert.KernelIdeal.Windows

end
-- ==== Proof.Blocks.lean ====
/-
  The context windows are taken separately in every batch entry, so the windows of a block of four consecutive
  batch entries of the signal are the same block of the windows of the whole signal.
-/
import proofs.«141431_j25666724560969_2_alg».proof.Proof.Frames

noncomputable section

namespace Cert.Frames

open Idealize.ShloMosaic

/-- If xb is batch entries 4q, …, 4q + 3 of X, then entry [b, r, l] of the windows of xb is entry [4q + b, r, l] of
    the windows of X. -/
theorem frames_block {α : Type} (z : α) (X : (⟨3, ![64, 2000, 26]⟩ : Shape).Idx → α)
    (xb : (⟨3, ![4, 2000, 26]⟩ : Shape).Idx → α) (q : Nat) (hq : q ≤ 15)
    (hxb : ∀ i : (⟨3, ![4, 2000, 26]⟩ : Shape).Idx, xb i = X (ValueIdx.ix3
      ⟨q * 4 + (i 0).val, by have h : (i 0).val < 4 := (i 0).isLt; omega⟩ ⟨(i 1).val, (i 1).isLt⟩ ⟨(i 2).val, (i 2).isLt⟩))
    (j : (⟨3, ![4, 2000, 494]⟩ : Shape).Idx) (J : (⟨3, ![64, 2000, 494]⟩ : Shape).Idx)
    (h0 : (J 0).val = q * 4 + (j 0).val) (h1 : (J 1).val = (j 1).val) (h2 : (J 2).val = (j 2).val) :
    frames z xb j = frames z X J := by
  have hj0 : (j 0).val < 4 := (j 0).isLt
  have hj1 : (j 1).val < 2000 := (j 1).isLt
  unfold frames
  by_cases hc : 9 ≤ (j 2).val / 26 + (j 1).val ∧ (j 2).val / 26 + (j 1).val < 2009
  · refine (rowsAt_of_inside z xb _ _
        (ValueIdx.ix3 ⟨(j 0).val, hj0⟩ ⟨(j 2).val / 26 + (j 1).val - 9, by omega⟩ ⟨(j 2).val % 26, Nat.mod_lt _ (by decide)⟩)
        ?_ ?_ ?_).trans ((hxb _).trans (rowsAt_of_inside z X _ _ _ ?_ ?_ ?_).symm)
    · rfl
    · show (j 2).val / 26 + (j 1).val - 9 + 9 = (j 2).val / 26 + (j 1).val; omega
    · rfl
    · show q * 4 + (j 0).val = (J 0).val; omega
    · show (j 2).val / 26 + (j 1).val - 9 + 9 = (J 2).val / 26 + (J 1).val; rw [h1, h2]; omega
    · show (j 2).val % 26 = (J 2).val % 26; rw [h2]
  · exact (rowsAt_of_outside z xb _ _ (by show (j 2).val / 26 + (j 1).val < 9 ∨ 2009 ≤ (j 2).val / 26 + (j 1).val; omega)).trans
      (rowsAt_of_outside z X _ _ (by show (J 2).val / 26 + (J 1).val < 9 ∨ 2009 ≤ (J 2).val / 26 + (J 1).val; rw [h1, h2]; omega)).symm

end Cert.Frames

end
-- ==== Proof.KernelArray.lean ====
/-
  From the output blocks to the output array.

  The grid has sixteen points; point t stages batch entries 4t, …, 4t + 3 of the signal (all rows, all lanes) and
  writes back the same batch entries of the output (all rows, all lanes).  What it writes back is the context
  windows of its input block (KernelBlock.lean), which is that block of the context windows of the whole signal
  (Blocks.lean); the sixteen blocks cover the output array, so after the run the output array is the context
  windows of the signal.
-/
import proofs.«141431_j25666724560969_2_alg».proof.Proof.Gen.KernelIdeal.Value
import proofs.«141431_j25666724560969_2_alg».proof.Proof.KernelBlock
import proofs.«141431_j25666724560969_2_alg».proof.Proof.Blocks

set_option maxRecDepth 16384

noncomputable section

namespace Cert.KernelIdeal.Windows

open Cert.KernelIdeal Cert.KernelIdeal.Gen Idealize.ShloMosaic Idealize.ShloMosaic.TcCoe Idealize.SL.Sem Cert.Frames
open Idealize.ShloMosaic.Pipeline (Dat)

variable {F : FTy → Type} [FloatOps F]
variable (m : (ℓ : Loc nD τ sig) → Buf (Elt F) ℓ) (ρ : Dev nD → PrngReg)

/-- The two index maps over the grid: both windows move along the batch axis only, together, and stay inside the
    sixteen blocks. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) ≤ 15 :=
  (by decide +kernel : ∀ t : Fin grid0.N, _)

/-- Every one of the sixteen batch blocks of the output is some point's. -/
theorem idx_onto : ∀ q : Fin 16, ∃ t : Fin cfg0.N, win0_1.index t = ![q.val, 0, 0] :=
  (by decide +kernel : ∀ q : Fin 16, ∃ t : Fin grid0.N, win0_1.index t = ![q.val, 0, 0])

/-- What point t writes back is its block of the context windows of the signal. -/
theorem flushed_eq (c : Dev nD) (t : Fin cfg0.N) :
    (dats m 0 c).flushed 1 t
      = ((cfg0.win 1).blk t).view.read (Elt F) (frames (zeroF (F := F)) (V m c main_arg0)) := by
  rw [Cert.KernelIdeal.Value.flushed1, out_eq (iblk m c 0 t)]
  obtain ⟨e0, e1, e2, e3, e4, e5⟩ := idx_facts t
  funext j
  show frames (zeroF (F := F)) (iblk m c 0 t) j
    = frames (zeroF (F := F)) (V m c main_arg0) (((cfg0.win 1).blk t).view.emb j)
  refine frames_block (zeroF (F := F)) (V m c main_arg0) (iblk m c 0 t) (win0_1.index t (0 : Fin 3)) e5
    (fun i => ?_) j _ ?_ ?_ ?_
  · show V m c main_arg0 (((cfg0.win 0).blk t).view.emb i) = _
    refine congrArg (V m c main_arg0) (funext fun a => Fin.ext ?_)
    match a with
    | ⟨0, _⟩ => show win0_0.index t (0 : Fin 3) * 4 + 1 * (i 0).val = win0_1.index t (0 : Fin 3) * 4 + (i 0).val; omega
    | ⟨1, _⟩ => show win0_0.index t (1 : Fin 3) * 2000 + 1 * (i 1).val = (i 1).val; omega
    | ⟨2, _⟩ => show win0_0.index t (2 : Fin 3) * 26 + 1 * (i 2).val = (i 2).val; omega
  · show win0_1.index t (0 : Fin 3) * 4 + 1 * (j 0).val = win0_1.index t (0 : Fin 3) * 4 + (j 0).val; omega
  · show win0_1.index t (1 : Fin 3) * 2000 + 1 * (j 1).val = (j 1).val; omega
  · show win0_1.index t (2 : Fin 3) * 494 + 1 * (j 2).val = (j 2).val; omega

/-- An index of the output array is in point t's block iff each coordinate is in the block's range on its axis. -/
theorem mem_blk (t : Fin cfg0.N) (i : S64x2000x494.Idx) :
    i ∈ ((cfg0.win 1).blk t).view.set ↔ ∀ a : Fin 3, win0_1.index t a * S4x2000x494.size a ≤ (i a).val
      ∧ (i a).val < win0_1.index t a * S4x2000x494.size a + S4x2000x494.size a := by
  show i ∈ ((View.whole main_v0).slice (win0_1.rect t)).set ↔ _
  rw [View.set_slice_whole, Rect.mem_set_unit]
  exact Iff.rfl

/-- Every index of the output array is in the block of the point that handles its batch entry. -/
theorem cover (i : S64x2000x494.Idx) :
    ∃ t : Fin cfg0.N, (cfg0.win 1).flush t = true ∧ i ∈ ((cfg0.win 1).blk t).view.set := by
  have hi0 : (i 0).val < 64 := (i 0).isLt
  have hi1 : (i 1).val < 2000 := (i 1).isLt
  have hi2 : (i 2).val < 494 := (i 2).isLt
  obtain ⟨t, ht⟩ := idx_onto ⟨(i 0).val / 4, by omega⟩
  have q0 : win0_1.index t (0 : Fin 3) = (i 0).val / 4 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 4 ≤ (i 0).val ∧ (i 0).val < win0_1.index t (0 : Fin 3) * 4 + 4; omega
  | ⟨1, _⟩ => show win0_1.index t (1 : Fin 3) * 2000 ≤ (i 1).val ∧ (i 1).val < win0_1.index t (1 : Fin 3) * 2000 + 2000; omega
  | ⟨2, _⟩ => show win0_1.index t (2 : Fin 3) * 494 ≤ (i 2).val ∧ (i 2).val < win0_1.index t (2 : Fin 3) * 494 + 494; omega

/-- The output array after the run: the context windows of the signal as launched. -/
theorem final (c : Dev nD) :
    (dats m 0 c).arrAt 1 cfg0.N = frames (zeroF (F := F)) (m ((c : Thread nD τ).loc main_arg0)) :=
  (dats m 0 c).arrAt_eq_of_cover 1 (frames (zeroF (F := F)) (V m c main_arg0)) (fun t _ => flushed_eq m c t) cover

/-- The kernel's run: every weakly fair execution ends with the result array at the context windows of the
    argument, and the argument unchanged. -/
theorem run : θ_run defs (onTc (τ := τ) (main (F := F))) ⟨m, fun _ => 0, ρ⟩ fun r => ∀ c : Dev nD,
      r.2.mem ((c : Thread nD τ).loc main_v0) = frames (zeroF (F := F)) (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Windows

end
-- ==== Proof.Reference.lean ====
/-
  What the reference computes, as one function of its argument.

  The reference pads the signal with nine rows of a value before row 0 and nine after row 1999 (the value is the
  integer zero converted to a float), takes the nineteen slices of 2000 rows starting at padded rows 0, …, 18, and
  joins them side by side: first sixteen of them, then the last three, then those two results.  Slice w is the
  padded signal shifted up by w rows, so the join is the context windows of the signal (Frames.lean).
-/
import proofs.«141431_j25666724560969_2_alg».proof.Proof.Gen.ReferenceIdeal.Read
import proofs.«141431_j25666724560969_2_alg».proof.Proof.Pieces

noncomputable section

namespace Cert.ReferenceIdeal.Windows

open Idealize.ShloMosaic Cert.ReferenceIdeal Cert.ReferenceIdeal.Gen Cert.ReferenceIdeal.Read Cert.Frames

variable {F : FTy → Type} [FloatOps F]

/-- The value the reference pads with: the one entry of the converted integer zero. -/
abbrev padF : Elt F .f32 := val_main_call0_v0 (F := F) (Shape.Idx.first h_S_)

/-- The padded signal at a padded row: the signal nine rows up inside, the padding value outside. -/
theorem padded_apply (x : (⟨S64x2000x26, .f32⟩ : BufTy).Contents (Elt F)) (p : S64x2018x26.Idx) :
    val_main_v0 (F := F) x p = rowsAt (R := 2018) (padF (F := F)) x 0 p := by
  have hp : (p 1).val < 2018 := (p 1).isLt
  unfold val_main_v0
  by_cases hc : 9 ≤ (p 1).val ∧ (p 1).val < 2009
  · rw [pad_apply_of_inside ![0, 9, 0] ![0, 9, 0] ![0, 0, 0] x (val_main_call0_v0 (F := F))
        pads_S64x2000x26_S64x2018x26_000_990_000 h_S_ p
        (ValueIdx.ix3 ⟨(p 0).val, (p 0).isLt⟩ ⟨(p 1).val - 9, by omega⟩ ⟨(p 2).val, (p 2).isLt⟩)
        (fun a => match a with
          | ⟨0, _⟩ => by show (p 0).val = 0 + (p 0).val * (0 + 1); omega
          | ⟨1, _⟩ => by show (p 1).val = 9 + ((p 1).val - 9) * (0 + 1); omega
          | ⟨2, _⟩ => by show (p 2).val = 0 + (p 2).val * (0 + 1); omega)]
    exact (rowsAt_of_inside _ x 0 p _ rfl (by show (p 1).val - 9 + 9 = 0 + (p 1).val; omega) rfl).symm
  · rw [pad_apply_of_not_inside ![0, 9, 0] ![0, 9, 0] ![0, 0, 0] x (val_main_call0_v0 (F := F))
        pads_S64x2000x26_S64x2018x26_000_990_000 h_S_ p 1
        (by show ¬(9 ≤ (p 1).val ∧ ((p 1).val - 9) % (0 + 1) = 0 ∧ ((p 1).val - 9) / (0 + 1) < 2000); omega)]
    exact (rowsAt_of_outside _ x 0 p (by omega)).symm

/-- The slice from padded row 0: the padded signal shifted up by 0 rows. -/
theorem slice0 (x : (⟨S64x2000x26, .f32⟩ : BufTy).Contents (Elt F)) :
    val_main_v1 (F := F) x = rowsAt (R := 2000) (padF (F := F)) x 0 := by
  funext i
  rw [val_main_v1_apply, padded_apply]
  exact rowsAt_congr _ x _ _ _ i rfl (rfl) rfl

/-- The slice from padded row 1: the padded signal shifted up by 1 rows. -/
theorem slice1 (x : (⟨S64x2000x26, .f32⟩ : BufTy).Contents (Elt F)) :
    val_main_v2 (F := F) x = rowsAt (R := 2000) (padF (F := F)) x 1 := by
  funext i
  rw [val_main_v2_apply, padded_apply]
  exact rowsAt_congr _ x _ _ _ i rfl (Nat.zero_add _) rfl

/-- The slice from padded row 2: the padded signal shifted up by 2 rows. -/
theorem slice2 (x : (⟨S64x2000x26, .f32⟩ : BufTy).Contents (Elt F)) :
    val_main_v3 (F := F) x = rowsAt (R := 2000) (padF (F := F)) x 2 := by
  funext i
  rw [val_main_v3_apply, padded_apply]
  exact rowsAt_congr _ x _ _ _ i rfl (Nat.zero_add _) rfl

/-- The slice from padded row 3: the padded signal shifted up by 3 rows. -/
theorem slice3 (x : (⟨S64x2000x26, .f32⟩ : BufTy).Contents (Elt F)) :
    val_main_v4 (F := F) x = rowsAt (R := 2000) (padF (F := F)) x 3 := by
  funext i
  rw [val_main_v4_apply, padded_apply]
  exact rowsAt_congr _ x _ _ _ i rfl (Nat.zero_add _) rfl

/-- The slice from padded row 4: the padded signal shifted up by 4 rows. -/
theorem slice4 (x : (⟨S64x2000x26, .f32⟩ : BufTy).Contents (Elt F)) :
    val_main_v5 (F := F) x = rowsAt (R := 2000) (padF (F := F)) x 4 := by
  funext i
  rw [val_main_v5_apply, padded_apply]
  exact rowsAt_congr _ x _ _ _ i rfl (Nat.zero_add _) rfl

/-- The slice from padded row 5: the padded signal shifted up by 5 rows. -/
theorem slice5 (x : (⟨S64x2000x26, .f32⟩ : BufTy).Contents (Elt F)) :
    val_main_v6 (F := F) x = rowsAt (R := 2000) (padF (F := F)) x 5 := by
  funext i
  rw [val_main_v6_apply, padded_apply]
  exact rowsAt_congr _ x _ _ _ i rfl (Nat.zero_add _) rfl

/-- The slice from padded row 6: the padded signal shifted up by 6 rows. -/
theorem slice6 (x : (⟨S64x2000x26, .f32⟩ : BufTy).Contents (Elt F)) :
    val_main_v7 (F := F) x = rowsAt (R := 2000) (padF (F := F)) x 6 := by
  funext i
  rw [val_main_v7_apply, padded_apply]
  exact rowsAt_congr _ x _ _ _ i rfl (Nat.zero_add _) rfl

/-- The slice from padded row 7: the padded signal shifted up by 7 rows. -/
theorem slice7 (x : (⟨S64x2000x26, .f32⟩ : BufTy).Contents (Elt F)) :
    val_main_v8 (F := F) x = rowsAt (R := 2000) (padF (F := F)) x 7 := by
  funext i
  rw [val_main_v8_apply, padded_apply]
  exact rowsAt_congr _ x _ _ _ i rfl (Nat.zero_add _) rfl

/-- The slice from padded row 8: the padded signal shifted up by 8 rows. -/
theorem slice8 (x : (⟨S64x2000x26, .f32⟩ : BufTy).Contents (Elt F)) :
    val_main_v9 (F := F) x = rowsAt (R := 2000) (padF (F := F)) x 8 := by
  funext i
  rw [val_main_v9_apply, padded_apply]
  exact rowsAt_congr _ x _ _ _ i rfl (Nat.zero_add _) rfl

/-- The slice from padded row 9: the padded signal shifted up by 9 rows. -/
theorem slice9 (x : (⟨S64x2000x26, .f32⟩ : BufTy).Contents (Elt F)) :
    val_main_v10 (F := F) x = rowsAt (R := 2000) (padF (F := F)) x 9 := by
  funext i
  rw [val_main_v10_apply, padded_apply]
  exact rowsAt_congr _ x _ _ _ i rfl (Nat.zero_add _) rfl

/-- The slice from padded row 10: the padded signal shifted up by 10 rows. -/
theorem slice10 (x : (⟨S64x2000x26, .f32⟩ : BufTy).Contents (Elt F)) :
    val_main_v11 (F := F) x = rowsAt (R := 2000) (padF (F := F)) x 10 := by
  funext i
  rw [val_main_v11_apply, padded_apply]
  exact rowsAt_congr _ x _ _ _ i rfl (Nat.zero_add _) rfl

/-- The slice from padded row 11: the padded signal shifted up by 11 rows. -/
theorem slice11 (x : (⟨S64x2000x26, .f32⟩ : BufTy).Contents (Elt F)) :
    val_main_v12 (F := F) x = rowsAt (R := 2000) (padF (F := F)) x 11 := by
  funext i
  rw [val_main_v12_apply, padded_apply]
  exact rowsAt_congr _ x _ _ _ i rfl (Nat.zero_add _) rfl

/-- The slice from padded row 12: the padded signal shifted up by 12 rows. -/
theorem slice12 (x : (⟨S64x2000x26, .f32⟩ : BufTy).Contents (Elt F)) :
    val_main_v13 (F := F) x = rowsAt (R := 2000) (padF (F := F)) x 12 := by
  funext i
  rw [val_main_v13_apply, padded_apply]
  exact rowsAt_congr _ x _ _ _ i rfl (Nat.zero_add _) rfl

/-- The slice from padded row 13: the padded signal shifted up by 13 rows. -/
theorem slice13 (x : (⟨S64x2000x26, .f32⟩ : BufTy).Contents (Elt F)) :
    val_main_v14 (F := F) x = rowsAt (R := 2000) (padF (F := F)) x 13 := by
  funext i
  rw [val_main_v14_apply, padded_apply]
  exact rowsAt_congr _ x _ _ _ i rfl (Nat.zero_add _) rfl

/-- The slice from padded row 14: the padded signal shifted up by 14 rows. -/
theorem slice14 (x : (⟨S64x2000x26, .f32⟩ : BufTy).Contents (Elt F)) :
    val_main_v15 (F := F) x = rowsAt (R := 2000) (padF (F := F)) x 14 := by
  funext i
  rw [val_main_v15_apply, padded_apply]
  exact rowsAt_congr _ x _ _ _ i rfl (Nat.zero_add _) rfl

/-- The slice from padded row 15: the padded signal shifted up by 15 rows. -/
theorem slice15 (x : (⟨S64x2000x26, .f32⟩ : BufTy).Contents (Elt F)) :
    val_main_v16 (F := F) x = rowsAt (R := 2000) (padF (F := F)) x 15 := by
  funext i
  rw [val_main_v16_apply, padded_apply]
  exact rowsAt_congr _ x _ _ _ i rfl (Nat.zero_add _) rfl

/-- The slice from padded row 16: the padded signal shifted up by 16 rows. -/
theorem slice16 (x : (⟨S64x2000x26, .f32⟩ : BufTy).Contents (Elt F)) :
    val_main_v17 (F := F) x = rowsAt (R := 2000) (padF (F := F)) x 16 := by
  funext i
  rw [val_main_v17_apply, padded_apply]
  exact rowsAt_congr _ x _ _ _ i rfl (Nat.zero_add _) rfl

/-- The slice from padded row 17: the padded signal shifted up by 17 rows. -/
theorem slice17 (x : (⟨S64x2000x26, .f32⟩ : BufTy).Contents (Elt F)) :
    val_main_v18 (F := F) x = rowsAt (R := 2000) (padF (F := F)) x 17 := by
  funext i
  rw [val_main_v18_apply, padded_apply]
  exact rowsAt_congr _ x _ _ _ i rfl (Nat.zero_add _) rfl

/-- The slice from padded row 18: the padded signal shifted up by 18 rows. -/
theorem slice18 (x : (⟨S64x2000x26, .f32⟩ : BufTy).Contents (Elt F)) :
    val_main_v19 (F := F) x = rowsAt (R := 2000) (padF (F := F)) x 18 := by
  funext i
  rw [val_main_v19_apply, padded_apply]
  exact rowsAt_congr _ x _ _ _ i rfl (Nat.zero_add _) rfl

/-- The first sixteen slices, as a family. -/
theorem slices16 (x : (⟨S64x2000x26, .f32⟩ : BufTy).Contents (Elt F)) (k : Fin 16) :
    (![val_main_v1 (F := F) x, val_main_v2 (F := F) x, val_main_v3 (F := F) x, val_main_v4 (F := F) x, val_main_v5 (F := F) x, val_main_v6 (F := F) x, val_main_v7 (F := F) x, val_main_v8 (F := F) x, val_main_v9 (F := F) x, val_main_v10 (F := F) x, val_main_v11 (F := F) x, val_main_v12 (F := F) x, val_main_v13 (F := F) x, val_main_v14 (F := F) x, val_main_v15 (F := F) x, val_main_v16 (F := F) x] : Fin 16 → (S64x2000x26.Idx → Elt F .f32)) k
      = rowsAt (R := 2000) (padF (F := F)) x k.val := by
  fin_cases k
  · exact slice0 x
  · exact slice1 x
  · exact slice2 x
  · exact slice3 x
  · exact slice4 x
  · exact slice5 x
  · exact slice6 x
  · exact slice7 x
  · exact slice8 x
  · exact slice9 x
  · exact slice10 x
  · exact slice11 x
  · exact slice12 x
  · exact slice13 x
  · exact slice14 x
  · exact slice15 x

/-- The last three slices, as a family. -/
theorem slices3 (x : (⟨S64x2000x26, .f32⟩ : BufTy).Contents (Elt F)) (k : Fin 3) :
    (![val_main_v17 (F := F) x, val_main_v18 (F := F) x, val_main_v19 (F := F) x] : Fin 3 → (S64x2000x26.Idx → Elt F .f32)) k
      = rowsAt (R := 2000) (padF (F := F)) x (16 + k.val) := by
  fin_cases k
  · exact slice16 x
  · exact slice17 x
  · exact slice18 x

/-- The first sixteen slices joined side by side, read at an index. -/
theorem joined16 (x : (⟨S64x2000x26, .f32⟩ : BufTy).Contents (Elt F)) (j : S64x2000x416.Idx) :
    val_main_v20 (F := F) x j = rowsAt (R := 2000) (padF (F := F)) x ((j 2).val / 26)
      (ValueIdx.ix3 ⟨(j 0).val, (j 0).isLt⟩ ⟨(j 1).val, (j 1).isLt⟩ ⟨(j 2).val % 26, Nat.mod_lt _ (by decide)⟩) := by
  unfold val_main_v20
  refine (lanes_apply (N := 16) ![val_main_v1 (F := F) x, val_main_v2 (F := F) x, val_main_v3 (F := F) x, val_main_v4 (F := F) x, val_main_v5 (F := F) x, val_main_v6 (F := F) x, val_main_v7 (F := F) x, val_main_v8 (F := F) x, val_main_v9 (F := F) x, val_main_v10 (F := F) x, val_main_v11 (F := F) x, val_main_v12 (F := F) x, val_main_v13 (F := F) x, val_main_v14 (F := F) x, val_main_v15 (F := F) x, val_main_v16 (F := F) x]
    concatenates_S64x2000x26_S64x2000x26_S64x2000x26_S64x2000x26_S64x2000x26_S64x2000x26_S64x2000x26_S64x2000x26_S64x2000x26_S64x2000x26_S64x2000x26_S64x2000x26_S64x2000x26_S64x2000x26_S64x2000x26_S64x2000x26_S64x2000x416_d2 j).trans ?_
  exact congrFun (slices16 x _) _

/-- The last three slices joined side by side, read at an index. -/
theorem joined3 (x : (⟨S64x2000x26, .f32⟩ : BufTy).Contents (Elt F)) (j : S64x2000x78.Idx) :
    val_main_v21 (F := F) x j = rowsAt (R := 2000) (padF (F := F)) x (16 + (j 2).val / 26)
      (ValueIdx.ix3 ⟨(j 0).val, (j 0).isLt⟩ ⟨(j 1).val, (j 1).isLt⟩ ⟨(j 2).val % 26, Nat.mod_lt _ (by decide)⟩) := by
  unfold val_main_v21
  refine (lanes_apply (N := 3) ![val_main_v17 (F := F) x, val_main_v18 (F := F) x, val_main_v19 (F := F) x]
    concatenates_S64x2000x26_S64x2000x26_S64x2000x26_S64x2000x78_d2 j).trans ?_
  exact congrFun (slices3 x _) _

/-- The reference's result: the context windows of its argument, padded with the reference's padding value. -/
theorem result_eq (x : (⟨S64x2000x26, .f32⟩ : BufTy).Contents (Elt F)) :
    val_main_v22 (F := F) x = frames (padF (F := F)) x := by
  funext j
  have hj : (j 2).val < 494 := (j 2).isLt
  unfold val_main_v22 frames
  by_cases hlt : (j 2).val < 416
  · rw [concatenate_pair_apply_left 2 _ _ concatenates_S64x2000x416_S64x2000x78_S64x2000x494_d2 j rfl
        (ValueIdx.ix3 ⟨(j 0).val, (j 0).isLt⟩ ⟨(j 1).val, (j 1).isLt⟩ ⟨(j 2).val, hlt⟩)
        (fun b => match b with | ⟨0, _⟩ => rfl | ⟨1, _⟩ => rfl | ⟨2, _⟩ => rfl)]
    rw [joined16]
  · rw [concatenate_pair_apply_right 2 _ _ concatenates_S64x2000x416_S64x2000x78_S64x2000x494_d2 j rfl rfl
        (ValueIdx.ix3 ⟨(j 0).val, (j 0).isLt⟩ ⟨(j 1).val, (j 1).isLt⟩ ⟨(j 2).val - 416, by omega⟩)
        (fun b hb => match b, hb with | ⟨0, _⟩, _ => rfl | ⟨1, _⟩, _ => rfl | ⟨2, _⟩, hb => absurd rfl hb)
        (by show (j 2).val - 416 + 416 = (j 2).val; omega)]
    rw [joined3]
    refine rowsAt_congr _ x _ _ _ _ rfl ?_ ?_
    · show 16 + ((j 2).val - 416) / 26 + (j 1).val = (j 2).val / 26 + (j 1).val; omega
    · show ((j 2).val - 416) % 26 = (j 2).val % 26; omega

end Cert.ReferenceIdeal.Windows

end
-- ==== Proof.lean ====
/-
  The kernel lays, for every row of a signal x[b, r, c] (64 × 2000 × 26), the nineteen rows r - 9, …, r + 9 side by
  side (zeros where a row falls outside the signal); the reference pads the signal with nine zero rows on each side,
  takes nineteen shifted slices and joins them.  Both results are the same function of the signal, the context
  windows of Proof/Frames.lean: entry [b, r, 26·w + c] is x[b, r + w - 9, c] when 0 ≤ r + w - 9 < 2000 and the padding
  value otherwise.  Nothing is computed with the entries, so the two sides agree on every extended real and the
  finiteness of the input is not used; the only arithmetic fact is that the two padding values, the float with all
  bits zero and the integer zero converted to a float, are both the real number zero.

  The kernel side: each of the body's ten stores is a run of rows of the windows of its input block
  (Proof/KernelBlock.lean), the sixteen grid points' blocks are blocks of the windows of the whole signal and cover
  the output (Proof/KernelArray.lean).  The reference side: each slice of the padded signal is a shifted group, and
  the joins put the groups side by side (Proof/Reference.lean).  The three frames are the generated ones; the idealized
  kernel is the kernel's own text read over the extended reals, so there is nothing to preserve.
-/
import proofs.«141431_j25666724560969_2_alg».proof.Defs
import proofs.«141431_j25666724560969_2_alg».proof.Proof.Gen.Kernel
import proofs.«141431_j25666724560969_2_alg».proof.Proof.Gen.Kernel.Skeleton
import proofs.«141431_j25666724560969_2_alg».proof.Proof.Gen.Kernel.Launch
import proofs.«141431_j25666724560969_2_alg».proof.Proof.Gen.Kernel.Points
import proofs.«141431_j25666724560969_2_alg».proof.Proof.Gen.Kernel.Frame
import proofs.«141431_j25666724560969_2_alg».proof.Proof.Gen.KernelIdeal
import proofs.«141431_j25666724560969_2_alg».proof.Proof.Gen.KernelIdeal.Skeleton
import proofs.«141431_j25666724560969_2_alg».proof.Proof.Gen.KernelIdeal.Launch
import proofs.«141431_j25666724560969_2_alg».proof.Proof.Gen.KernelIdeal.Points
import proofs.«141431_j25666724560969_2_alg».proof.Proof.Gen.KernelIdeal.Frame
import proofs.«141431_j25666724560969_2_alg».proof.Proof.Gen.ReferenceIdeal
import proofs.«141431_j25666724560969_2_alg».proof.Proof.Gen.Pre_finite_inputs
import proofs.«141431_j25666724560969_2_alg».proof.Proof.Gen.KernelIdeal.Value
import proofs.«141431_j25666724560969_2_alg».proof.Proof.Gen.ReferenceIdeal.Run
import proofs.«141431_j25666724560969_2_alg».proof.Proof.Gen.ReferenceIdeal.Read
import proofs.«141431_j25666724560969_2_alg».proof.Proof.KernelArray
import proofs.«141431_j25666724560969_2_alg».proof.Proof.Reference
import Idealize.ShloMosaic.PureOps.Ideal.Laws
import Idealize.ShloMosaic.Adequacy
import Idealize.ShloMosaic.Init

noncomputable section

namespace Cert.Proof

open Idealize.ShloMosaic Idealize.ShloMosaic.TcCoe Idealize.SL.Sem Cert.Frames

/-- The kernel's padding value, the float whose bits are all zero, is the real number zero. -/
theorem zero_kernel : Cert.KernelIdeal.Windows.zeroF (F := Ideal) = (0 : EReal) := Ideal.ofBits_zero_f32

/-- The reference's padding value, the integer zero converted to a float, is the real number zero. -/
theorem zero_reference : Cert.ReferenceIdeal.Windows.padF (F := Ideal) = (0 : EReal) := by
  show (((0#32 : BitVec 32).toInt : ℝ) : EReal) = 0
  simp

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the context windows of the signal: the kernel's by its run read block by block, the
    reference's by its run read slice by slice, with one padding value. -/
theorem algebraic : Cert.algebraic_KernelIdeal_ReferenceIdeal := by
  intro m ρ m' ρ' _ hagree
  refine ⟨_, Cert.KernelIdeal.Windows.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.Windows.result_eq, hagree c,
    zero_reference, zero_kernel]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
